-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x256 : Shape := ⟨4, ![8, 256, 256, 256]⟩
abbrev S256 : Shape := ⟨1, ![256]⟩
abbrev S32x256 : Shape := ⟨2, ![32, 256]⟩
abbrev S256x32 : Shape := ⟨2, ![256, 32]⟩
abbrev S_ : Shape := ⟨0, ![]⟩

class Facts : Prop where
  bcast_S_S8x256x256x256 : S_.BroadcastsInDim S8x256x256x256 (![] : Fin 0 → Fin S8x256x256x256.rank)
  reducesTo_S8x256x256x256_S_d0_1_2_3 : S8x256x256x256.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S256x32 : S_.BroadcastsInDim S256x32 (![] : Fin 0 → Fin S256x32.rank)
  reducesTo_S256x32_S_d0_1 : S256x32.ReducesTo [0, 1] S_

variable [Facts]

def fn_part1 {F : FTy → Type} [FloatOps F] (main_arg4 : FVec F S256x32 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  main_v23

def fn {F : FTy → Type} [FloatOps F] (main_arg0 : FVec F S8x256x256x256 .f32) (main_arg1 : FVec F S256 .f32) (main_arg2 : FVec F S256 .f32) (main_arg3 : FVec F S32x256 .f32) (main_arg4 : FVec F S256x32 .f32) : IVec S_ 1 :=
  let main_v0 : FVec F S8x256x256x256 .f32 := Host.absf main_arg0
  let main_cst : FVec F S_ .f32 := constant S_ .f32 0x7F800000#32
  let main_v1 : FVec F S8x256x256x256 .f32 := broadcastInDim S8x256x256x256 ![] bcast_S_S8x256x256x256 main_cst
  let main_v2 : IVec S8x256x256x256 1 := cmpf .olt main_v0 main_v1
  let main_c : IVec S_ 1 := constantI S_ 1 1#1
  let main_v3 : IVec S_ 1 := (fun x v => Host.reduce IntOp.andi x v reducesTo_S8x256x256x256_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg4 main_v13 main_v16
-- ==== Kernel.lean ====
abbrev S8x256x256x256 : Shape := ⟨4, ![8, 256, 256, 256]⟩
abbrev S256 : Shape := ⟨1, ![256]⟩
abbrev S32x256 : Shape := ⟨2, ![32, 256]⟩
abbrev S256x32 : Shape := ⟨2, ![256, 32]⟩
abbrev S256x1 : Shape := ⟨2, ![256, 1]⟩
abbrev S_ : Shape := ⟨0, ![]⟩
abbrev S32 : Shape := ⟨1, ![32]⟩
abbrev S1x32 : Shape := ⟨2, ![1, 32]⟩
abbrev S1x256x32x256 : Shape := ⟨4, ![1, 256, 32, 256]⟩
abbrev S1x256x8x256 : Shape := ⟨4, ![1, 256, 8, 256]⟩
abbrev S256x8x256 : Shape := ⟨3, ![256, 8, 256]⟩
abbrev S8x256 : Shape := ⟨2, ![8, 256]⟩
abbrev S1x8x256 : Shape := ⟨3, ![1, 8, 256]⟩
abbrev S256x256 : Shape := ⟨2, ![256, 256]⟩
abbrev S32x32 : Shape := ⟨2, ![32, 32]⟩
abbrev S256x1x256 : Shape := ⟨3, ![256, 1, 256]⟩

abbrev nBuf : Space → Nat
  | .hbm => 40
  | .vmem => 10
  | .smem => 0
  | _ => 0

abbrev bufTy : (tb : Table) → Fin (tcTables nBuf tb) → BufTy
  | .hbm, ⟨0, _⟩ => ⟨S8x256x256x256, .f32⟩
  | .hbm, ⟨1, _⟩ => ⟨S256, .f32⟩
  | .hbm, ⟨2, _⟩ => ⟨S256, .f32⟩
  | .hbm, ⟨3, _⟩ => ⟨S32x256, .f32⟩
  | .hbm, ⟨4, _⟩ => ⟨S256x32, .f32⟩
  | .hbm, ⟨5, _⟩ => ⟨S256x1, .f32⟩
  | .hbm, ⟨6, _⟩ => ⟨S256x1, .f32⟩
  | .hbm, ⟨7, _⟩ => ⟨S256x32, .f32⟩
  | .hbm, ⟨8, _⟩ => ⟨S32x256, .f32⟩
  | .hbm, ⟨9, _⟩ => ⟨S256, .i32⟩
  | .hbm, ⟨10, _⟩ => ⟨S256x1, .i32⟩
  | .hbm, ⟨11, _⟩ => ⟨S_, .i32⟩
  | .hbm, ⟨12, _⟩ => ⟨S_, .i32⟩
  | .hbm, ⟨13, _⟩ => ⟨S256x1, .i32⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i32⟩
  | .hbm, ⟨20, _⟩ => ⟨S256x1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x1, .i1⟩
  | .hbm, ⟨25, _⟩ => ⟨S_, .i32⟩
  | .hbm, ⟨26, _⟩ => ⟨S256x1, .i32⟩
  | .hbm, ⟨27, _⟩ => ⟨S256x1, .i32⟩
  | .hbm, ⟨28, _⟩ => ⟨S256x1, .i32⟩
  | .hbm, ⟨29, _⟩ => ⟨S32, .i32⟩
  | .hbm, ⟨30, _⟩ => ⟨S1x32, .i32⟩
  | .hbm, ⟨31, _⟩ => ⟨S256x32, .i32⟩
  | .hbm, ⟨32, _⟩ => ⟨S256x32, .i32⟩
  | .hbm, ⟨33, _⟩ => ⟨S256x32, .i1⟩
  | .hbm, ⟨34, _⟩ => ⟨S256x32, .f32⟩
  | .hbm, ⟨35, _⟩ => ⟨S_, .f32⟩
  | .hbm, ⟨36, _⟩ => ⟨S256x32, .f32⟩
  | .hbm, ⟨37, _⟩ => ⟨S256x32, .f32⟩
  | .hbm, ⟨38, _⟩ => ⟨S32x256, .f32⟩
  | .hbm, ⟨39, _⟩ => ⟨S8x256x256x256, .f32⟩
  | .local _ .vmem, ⟨0, _⟩ => ⟨S1x256x32x256, .f32⟩
  | .local _ .vmem, ⟨1, _⟩ => ⟨S1x256x32x256, .f32⟩
  | .local _ .vmem, ⟨2, _⟩ => ⟨S256x1, .f32⟩
  | .local _ .vmem, ⟨3, _⟩ => ⟨S256x1, .f32⟩
  | .local _ .vmem, ⟨4, _⟩ => ⟨S256x32, .f32⟩
  | .local _ .vmem, ⟨5, _⟩ => ⟨S32x256, .f32⟩
  | .local _ .vmem, ⟨6, _⟩ => ⟨S256x32, .f32⟩
  | .local _ .vmem, ⟨7, _⟩ => ⟨S32x256, .f32⟩
  | .local _ .vmem, ⟨8, _⟩ => ⟨S1x256x32x256, .f32⟩
  | .local _ .vmem, ⟨9, _⟩ => ⟨S1x256x32x256, .f32⟩
  | _, _ => ⟨S8x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c4_i32 : BitVec 32 := 4#32
  let v14 : BitVec 32 := Scalar.addi c0_i32 c4_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  v15
def k0_off1 (k0_t1 : Fin k0_t1_loop.trips) : Fin 4 → Nat :=
  let c0_12 : Index := 0#32
  let c0_13 : Index := 0#32
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let v16 : BitVec 32 := v15
  let v17 : Index := Scalar.indexCast v16
  let c0_14 : Index := 0#32
  ![0, 0, v17.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S256_S256x1 : S256.ShapeCasts S256x1
  transposes_S32x256_S256x32_1_0 : S32x256.Transposes [1, 0] S256x32
  transposes_S256x32_S32x256_1_0 : S256x32.Transposes [1, 0] S32x256
  bcast_S256_S256x1_0 : S256.BroadcastsInDim S256x1 (![0] : Fin 1 → Fin S256x1.rank)
  bcast_S_S256x1 : S_.BroadcastsInDim S256x1 (![] : Fin 0 → Fin S256x1.rank)
  bcast_S32_S1x32_1 : S32.BroadcastsInDim S1x32 (![1] : Fin 1 → Fin S1x32.rank)
  bcast_S256x1_S256x32_0_1 : S256x1.BroadcastsInDim S256x32 (![0, 1] : Fin 2 → Fin S256x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  bitsLt_bf16_f32 : FTy.bits .bf16 < FTy.bits .f32
  h_S1x256x8x256 : 0 < S1x256x8x256.numel
  shapeCasts_S1x256x8x256_S256x8x256 : S1x256x8x256.ShapeCasts S256x8x256
  reduces_S256x8x256_S8x256 : S256x8x256.Reduces [0] S8x256
  shapeCasts_S8x256_S1x8x256 : S8x256.ShapeCasts S1x8x256
  broadcasts_S1x8x256_S256x8x256 : S1x8x256.Broadcasts S256x8x256
  reduces_S256x8x256_S256x256 : S256x8x256.Reduces [1] S256x256
  broadcasts_S256x1_S256x32 : S256x1.Broadcasts S256x32
  transposes_S256x32_p1_0_S32x256 : S256x32.Transposes [1, 0] S32x256
  transposes_S32x256_p1_0_S256x32 : S32x256.Transposes [1, 0] S256x32
  broadcasts_S256x1_S256x256 : S256x1.Broadcasts S256x256
  shapeCasts_S256x256_S256x1x256 : S256x256.ShapeCasts S256x1x256
  shapeCasts_S256x1x256_S256x1x256 : S256x1x256.ShapeCasts S256x1x256
  broadcasts_S256x1x256_S256x8x256 : S256x1x256.Broadcasts S256x8x256
  shapeCasts_S256x8x256_S1x256x8x256 : S256x8x256.ShapeCasts S1x256x8x256
  dot_S256x256_S256x32_S256x32_1_0_0_1_n_n_wf : DotDims.WF S256x256 S256x32 S256x32 [1] [0] [0] [1] [] []
  dot_S32x256_S256x32_S32x32_1_0_0_1_n_n_wf : DotDims.WF S32x256 S256x32 S32x32 [1] [0] [0] [1] [] []
  dot_S32x32_S32x256_S32x256_1_0_0_1_n_n_wf : DotDims.WF S32x32 S32x256 S32x256 [1] [0] [0] [1] [] []
  dot_S256x32_S32x256_S256x256_1_0_0_1_n_n_wf : DotDims.WF S256x32 S32x256 S256x256 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x256x8x256.size a ≤ S1x256x32x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x256.size a ≤ S8x256x256x256.size a
  hwx0_0 : ∀ i : grid0.Coords, EltTy.bits .f32 = 32 ∨ (Rect.block (s := S8x256x256x256) S1x256x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x256.size a
  hwx0_4 : ∀ i : grid0.Coords, EltTy.bits .f32 = 32 ∨ (Rect.block (s := S32x256) S32x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S256x32.size a
  hwx0_5 : ∀ i : grid0.Coords, EltTy.bits .f32 = 32 ∨ (Rect.block (s := S256x32) S256x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S32x256.size a
  hwx0_6 : ∀ i : grid0.Coords, EltTy.bits .f32 = 32 ∨ (Rect.block (s := S32x256) S32x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x32x256.size a ≤ S8x256x256x256.size a
  hwx0_7 : ∀ i : grid0.Coords, EltTy.bits .f32 = 32 ∨ (Rect.block (s := S8x256x256x256) S1x256x32x256.size (cc0_transform_7 i) (hinb0_7 i)).WholeWords (EltTy.packing .f32)

variable [Facts₀]

def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf
def dot_S256x32_S32x256_S256x256_1_0_0_1_n_n : DotDims S256x32 S32x256 S256x256 where
  lhsContracting := [1]
  rhsContracting := [0]
  lhsNonContracting := [0]
  rhsNonContracting := [1]
  lhsBatch := []
  rhsBatch := []
  wf := dot_S256x32_S32x256_S256x256_1_0_0_1_n_n_wf

abbrev win0_0 : Pipeline.Window sig grid0 :=
  Pipeline.Window.ofSpec (Memref.whole main_arg0) S1x256x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S32x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x256x32x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x256x256 : Shape := ⟨4, ![8, 256, 256, 256]⟩
abbrev S256 : Shape := ⟨1, ![256]⟩
abbrev S32x256 : Shape := ⟨2, ![32, 256]⟩
abbrev S256x32 : Shape := ⟨2, ![256, 32]⟩
abbrev S_ : Shape := ⟨0, ![]⟩
abbrev S8x256x256 : Shape := ⟨3, ![8, 256, 256]⟩
abbrev S8x256x256x1 : Shape := ⟨4, ![8, 256, 256, 1]⟩
abbrev S1x1x1x256 : Shape := ⟨4, ![1, 1, 1, 256]⟩
abbrev S8x32x8x32x8x256 : Shape := ⟨6, ![8, 32, 8, 32, 8, 256]⟩
abbrev S8x32x32x256 : Shape := ⟨4, ![8, 32, 32, 256]⟩
abbrev S8x32x32x32 : Shape := ⟨4, ![8, 32, 32, 32]⟩
abbrev S8x32x1x32x1x256 : Shape := ⟨6, ![8, 32, 1, 32, 1, 256]⟩

abbrev nBuf : Space → Nat
  | .hbm => 65
  | .vmem => 0
  | .smem => 0
  | _ => 0

abbrev bufTy : (tb : Table) → Fin (tcTables nBuf tb) → BufTy
  | .hbm, ⟨0, _⟩ => ⟨S8x256x256x256, .f32⟩
  | .hbm, ⟨1, _⟩ => ⟨S256, .f32⟩
  | .hbm, ⟨2, _⟩ => ⟨S256, .f32⟩
  | .hbm, ⟨3, _⟩ => ⟨S32x256, .f32⟩
  | .hbm, ⟨4, _⟩ => ⟨S256x32, .f32⟩
  | .hbm, ⟨5, _⟩ => ⟨S8x256x256x256, .f32⟩
  | .hbm, ⟨6, _⟩ => ⟨S_, .f32⟩
  | .hbm, ⟨7, _⟩ => ⟨S8x256x256, .f32⟩
  | .hbm, ⟨8, _⟩ => ⟨S8x256x256x1, .f32⟩
  | .hbm, ⟨9, _⟩ => ⟨S_, .f32⟩
  | .hbm, ⟨10, _⟩ => ⟨S8x256x256x1, .f32⟩
  | .hbm, ⟨11, _⟩ => ⟨S8x256x256x1, .f32⟩
  | .hbm, ⟨12, _⟩ => ⟨S8x256x256x256, .f32⟩
  | .hbm, ⟨13, _⟩ => ⟨S8x256x256x256, .f32⟩
  | .hbm, ⟨14, _⟩ => ⟨S8x256x256x256, .f32⟩
  | .hbm, ⟨15, _⟩ => ⟨S_, .f32⟩
  | .hbm, ⟨16, _⟩ => ⟨S8x256x256, .f32⟩
  | .hbm, ⟨17, _⟩ => ⟨S8x256x256x1, .f32⟩
  | .hbm, ⟨18, _⟩ => ⟨S_, .f32⟩
  | .hbm, ⟨19, _⟩ => ⟨S8x256x256x1, .f32⟩
  | .hbm, ⟨20, _⟩ => ⟨S8x256x256x1, .f32⟩
  | .hbm, ⟨21, _⟩ => ⟨S8x256x256x256, .f32⟩
  | .hbm, ⟨22, _⟩ => ⟨S8x256x256x256, .f32⟩
  | .hbm, ⟨23, _⟩ => ⟨S_, .f32⟩
  | .hbm, ⟨24, _⟩ => ⟨S8x256x256x1, .f32⟩
  | .hbm, ⟨25, _⟩ => ⟨S8x256x256x1, .f32⟩
  | .hbm, ⟨26, _⟩ => ⟨S8x256x256x1, .f32⟩
  | .hbm, ⟨27, _⟩ => ⟨S8x256x256x256, .f32⟩
  | .hbm, ⟨28, _⟩ => ⟨S8x256x256x256, .f32⟩
  | .hbm, ⟨29, _⟩ => ⟨S1x1x1x256, .f32⟩
  | .hbm, ⟨30, _⟩ => ⟨S8x256x256x256, .f32⟩
  | .hbm, ⟨31, _⟩ => ⟨S8x256x256x256, .f32⟩
  | .hbm, ⟨32, _⟩ => ⟨S1x1x1x256, .f32⟩
  | .hbm, ⟨33, _⟩ => ⟨S8x256x256x256, .f32⟩
  | .hbm, ⟨34, _⟩ => ⟨S8x256x256x256, .f32⟩
  | .hbm, ⟨35, _⟩ => ⟨S8x32x8x32x8x256, .f32⟩
  | .hbm, ⟨36, _⟩ => ⟨S_, .f32⟩
  | .hbm, ⟨37, _⟩ => ⟨S8x32x32x256, .f32⟩
  | .hbm, ⟨38, _⟩ => ⟨S_, .f32⟩
  | .hbm, ⟨39, _⟩ => ⟨S8x32x32x256, .f32⟩
  | .hbm, ⟨40, _⟩ => ⟨S8x32x32x256, .f32⟩
  | .hbm, ⟨41, _⟩ => ⟨S8x32x32x32, .f32⟩
  | .hbm, ⟨42, _⟩ => ⟨S8x32x32x32, .f32⟩
  | .hbm, ⟨43, _⟩ => ⟨S8x32x32x32, .f32⟩
  | .hbm, ⟨44, _⟩ => ⟨S_, .f32⟩
  | .hbm, ⟨45, _⟩ => ⟨S8x32x32x32, .f32⟩
  | .hbm, ⟨46, _⟩ => ⟨S8x32x32x32, .f32⟩
  | .hbm, ⟨47, _⟩ => ⟨S_, .f32⟩
  | .hbm, ⟨48, _⟩ => ⟨S8x32x32x32, .f32⟩
  | .hbm, ⟨49, _⟩ => ⟨S8x32x32x32, .f32⟩
  | .hbm, ⟨50, _⟩ => ⟨S8x32x32x32, .f32⟩
  | .hbm, ⟨51, _⟩ => ⟨S8x32x32x256, .f32⟩
  | .hbm, ⟨52, _⟩ => ⟨S8x32x32x256, .f32⟩
  | .hbm, ⟨53, _⟩ => ⟨S8x32x32x256, .f32⟩
  | .hbm, ⟨54, _⟩ => ⟨S_, .f32⟩
  | .hbm, ⟨55, _⟩ => ⟨S8x32x32x256, .f32⟩
  | .hbm, ⟨56, _⟩ => ⟨S8x32x32x256, .f32⟩
  | .hbm, ⟨57, _⟩ => ⟨S_, .f32⟩
  | .hbm, ⟨58, _⟩ => ⟨S8x32x32x256, .f32⟩
  | .hbm, ⟨59, _⟩ => ⟨S8x32x32x256, .f32⟩
  | .hbm, ⟨60, _⟩ => ⟨S8x32x1x32x1x256, .f32⟩
  | .hbm, ⟨61, _⟩ => ⟨S8x32x8x32x8x256, .f32⟩
  | .hbm, ⟨62, _⟩ => ⟨S8x32x8x32x8x256, .f32⟩
  | .hbm, ⟨63, _⟩ => ⟨S8x256x256x256, .f32⟩
  | .hbm, ⟨64, _⟩ => ⟨S8x256x256x256, .f32⟩
  | _, _ => ⟨S8x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  transposes_S8x256x256x256_S8x256x256x256_0_2_3_1 : S8x256x256x256.Transposes [0, 2, 3, 1] S8x256x256x256
  reducesTo_S8x256x256x256_S8x256x256_d3 : S8x256x256x256.ReducesTo [3] S8x256x256
  h_S_ : 0 < S_.numel
  bcast_S8x256x256_S8x256x256x1_0_1_2 : S8x256x256.BroadcastsInDim S8x256x256x1 (![0, 1, 2] : Fin 3 → Fin S8x256x256x1.rank)
  bcast_S_S8x256x256x1 : S_.BroadcastsInDim S8x256x256x1 (![] : Fin 0 → Fin S8x256x256x1.rank)
  bcast_S8x256x256x1_S8x256x256x256_0_1_2_3 : S8x256x256x1.BroadcastsInDim S8x256x256x256 (![0, 1, 2, 3] : Fin 4 → Fin S8x256x256x256.rank)
  bcast_S256_S1x1x1x256_3 : S256.BroadcastsInDim S1x1x1x256 (![3] : Fin 1 → Fin S1x1x1x256.rank)
  bcast_S1x1x1x256_S8x256x256x256_0_1_2_3 : S1x1x1x256.BroadcastsInDim S8x256x256x256 (![0, 1, 2, 3] : Fin 4 → Fin S8x256x256x256.rank)
  shapeCasts_S8x256x256x256_S8x32x8x32x8x256 : S8x256x256x256.ShapeCasts S8x32x8x32x8x256
  reducesTo_S8x32x8x32x8x256_S8x32x32x256_d2_4 : S8x32x8x32x8x256.ReducesTo [2, 4] S8x32x32x256
  bcast_S_S8x32x32x256 : S_.BroadcastsInDim S8x32x32x256 (![] : Fin 0 → Fin S8x32x32x256.rank)
  bcast_S_S8x32x32x32 : S_.BroadcastsInDim S8x32x32x32 (![] : Fin 0 → Fin S8x32x32x32.rank)
  bcast_S8x32x32x256_S8x32x1x32x1x256_0_1_3_5 : S8x32x32x256.BroadcastsInDim S8x32x1x32x1x256 (![0, 1, 3, 5] : Fin 4 → Fin S8x32x1x32x1x256.rank)
  bcast_S8x32x1x32x1x256_S8x32x8x32x8x256_0_1_2_3_4_5 : S8x32x1x32x1x256.BroadcastsInDim S8x32x8x32x8x256 (![0, 1, 2, 3, 4, 5] : Fin 6 → Fin S8x32x8x32x8x256.rank)
  shapeCasts_S8x32x8x32x8x256_S8x256x256x256 : S8x32x8x32x8x256.ShapeCasts S8x256x256x256
  transposes_S8x256x256x256_S8x256x256x256_0_3_1_2 : S8x256x256x256.Transposes [0, 3, 1, 2] S8x256x256x256
  dot_S8x32x32x256_S32x256_S8x32x32x32_3_1_012_0_n_n_wf : DotDims.WF S8x32x32x256 S32x256 S8x32x32x32 [3] [1] [0, 1, 2] [0] [] []
  dot_S8x32x32x32_S256x32_S8x32x32x256_3_1_012_0_n_n_wf : DotDims.WF S8x32x32x32 S256x32 S8x32x32x256 [3] [1] [0, 1, 2] [0] [] []

variable [Facts₀]

def dot_S8x32x32x256_S32x256_S8x32x32x32_3_1_012_0_n_n : DotDims S8x32x32x256 S32x256 S8x32x32x32 where
  lhsContracting := [3]
  rhsContracting := [1]
  lhsNonContracting := [0, 1, 2]
  rhsNonContracting := [0]
  lhsBatch := []
  rhsBatch := []
  wf := dot_S8x32x32x256_S32x256_S8x32x32x32_3_1_012_0_n_n_wf
def dot_S8x32x32x32_S256x32_S8x32x32x256_3_1_012_0_n_n : DotDims S8x32x32x32 S256x32 S8x32x32x256 where
  lhsContracting := [3]
  rhsContracting := [1]
  lhsNonContracting := [0, 1, 2]
  rhsNonContracting := [0]
  lhsBatch := []
  rhsBatch := []
  wf := dot_S8x32x32x32_S256x32_S8x32x32x256_3_1_012_0_n_n_wf

class Facts : Prop extends Facts₀ where

variable [Facts]
-- ==== Proof.KernelBlock.lean ====
/-
  What the body leaves in its output block. The body runs four trips; trip k loads rows 8k .. 8k+7 of the input
  block (all 256 channels and columns), computes one value of those eight rows and the six small operands, and stores
  it to the same eight rows of the output block. The stores' row ranges are disjoint, so the output block read at
  row 8k + p is trip k's value read at row p.
-/
import proofs.«130388_j39152921870505_2_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Block

open Cert.KernelIdeal Cert.KernelIdeal.Gen

variable {F : FTy → Type} [FloatOps F]

/-- The value one trip stores, as a function of the six small operands as loaded and the eight rows it loads. -/
def tripVal (v0 v2 : Vec F S256x1 .f32) (v4 : Vec F S256x32 .f32) (v6 : Vec F S32x256 .f32) (v8 : Vec F S256x32 .f32)
    (v11 : Vec F S32x256 .f32) (v18 : Vec F S1x256x8x256 .f32) : FVec F S1x256x8x256 .f32 :=
  k0_pay7 (k0_pay8 v18)
    (k0_pay9 (k0_pay1 v0) (k0_pay2 v2) (k0_pay3 v4) (k0_pay4 v6) (k0_pay5 v8) (k0_pay6 v11) v18)
    (k0_pay10 (k0_pay1 v0) (k0_pay2 v2) (k0_pay3 v4) (k0_pay4 v6) (k0_pay5 v8) (k0_pay6 v11) v18)
    (k0_pay11 (k0_pay2 v2))

/-- Trip k's rectangle of the block: rows 8k .. 8k+7, everything else whole. -/
abbrev rect (k : Fin k0_t1_loop.trips) : Rect S1x256x32x256 :=
  Rect.unit (s := S1x256x32x256) (k0_off1 k) S1x256x8x256.size (k0_off1_inb k)

/-- One trip writes one piece: its value over its rectangle. -/
theorem tripL_eq (𝒱 : Variants) (c : Dev nD) (bd : Option 𝒱.V) (i : grid0.Coords) (arg2 : Memref sig .tc .vmem S1x256x32x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x32 .f32) (harg5 : arg5.IsWhole) (arg6 : Memref sig .tc .vmem S32x256 .f32) (harg6 : arg6.IsWhole) (arg7 : Memref sig .tc .vmem S256x32 .f32) (harg7 : arg7.IsWhole) (arg8 : Memref sig .tc .vmem S32x256 .f32) (harg8 : arg8.IsWhole) (arg9 : Memref sig .tc .vmem S1x256x32x256 .f32) (harg9 : arg9.IsWhole) (v0 : Vec F S256x1 .f32) (v2 : Vec F S256x1 .f32) (v4 : Vec F S256x32 .f32) (v6 : Vec F S32x256 .f32) (v8 : Vec F S256x32 .f32) (v11 : Vec F S32x256 .f32) (X_arg2 : BufTy.Contents (Elt F) arg2.view.ty) (k : Fin k0_t1_loop.trips) :
    tripL_k0_t1 (F := F) 𝒱 c bd i arg2 harg2 arg3 harg3 arg4 harg4 arg5 harg5 arg6 harg6 arg7 harg7 arg8 harg8 arg9 harg9 v0 v2 v4 v6 v8 v11 X_arg2 k
      = [⟨rect k, tripVal v0 v2 v4 v6 v8 v11 (View.readAt (Elt F) arg2.view (rect k).toLoadRect X_arg2)⟩] := by
  unfold tripL_k0_t1 trip_k0_t1
  dsimp only
  sl_unfold_words
  rfl

/-- Two trips' rectangles do not meet: an index of trip k's is outside trip n's when k < n. -/
theorem not_mem_rect (k n : Fin k0_t1_loop.trips) (h : k.val < n.val) (x : (rect k).shape.Idx) :
    (rect k).emb x ∉ (rect n).set := by
  intro hm
  have h2 := (Rect.mem_set_unit.mp hm) (2 : Fin 4)
  have e : (((rect k).emb x) (2 : Fin 4) : Nat) = k0_off1 k 2 + 1 * (x (2 : Fin 4)).val := rfl
  have hx : (x (2 : Fin 4)).val < 8 := (x (2 : Fin 4)).isLt
  rw [e, k0_off1_eq k, k0_off1_eq n] at h2
  have h2' : 8 * n.val ≤ 8 * k.val + 1 * (x (2 : Fin 4)).val := h2.1
  omega

/-- The pieces of the first n trips, read at an index of trip k's rectangle (k < n), give trip k's value there. -/
theorem canon_pb (𝒱 : Variants) (c : Dev nD) (bd : Option 𝒱.V) (i : grid0.Coords) (arg2 : Memref sig .tc .vmem S1x256x32x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x32 .f32) (harg5 : arg5.IsWhole) (arg6 : Memref sig .tc .vmem S32x256 .f32) (harg6 : arg6.IsWhole) (arg7 : Memref sig .tc .vmem S256x32 .f32) (harg7 : arg7.IsWhole) (arg8 : Memref sig .tc .vmem S32x256 .f32) (harg8 : arg8.IsWhole) (arg9 : Memref sig .tc .vmem S1x256x32x256 .f32) (harg9 : arg9.IsWhole) (v0 : Vec F S256x1 .f32) (v2 : Vec F S256x1 .f32) (v4 : Vec F S256x32 .f32) (v6 : Vec F S32x256 .f32) (v8 : Vec F S256x32 .f32) (v11 : Vec F S32x256 .f32) (X_arg2 : BufTy.Contents (Elt F) arg2.view.ty) (n : ℕ) :
    n ≤ k0_t1_loop.trips → ∀ (k : Fin k0_t1_loop.trips), k.val < n → ∀ (x : (rect k).shape.Idx),
      View.canon (pb_k0_t1 (F := F) 𝒱 c bd i arg2 harg2 arg3 harg3 arg4 harg4 arg5 harg5 arg6 harg6 arg7 harg7 arg8 harg8 arg9 harg9 v0 v2 v4 v6 v8 v11 X_arg2 n) ((rect k).emb x)
        = tripVal v0 v2 v4 v6 v8 v11 (View.readAt (Elt F) arg2.view (rect k).toLoadRect X_arg2) x := by
  induction n with
  | zero => intro _ k hk; exact absurd hk (Nat.not_lt_zero _)
  | succ n ih =>
    intro hn k hk x
    have hlt : n < k0_t1_loop.trips := hn
    have e : pb_k0_t1 (F := F) 𝒱 c bd i arg2 harg2 arg3 harg3 arg4 harg4 arg5 harg5 arg6 harg6 arg7 harg7 arg8 harg8 arg9 harg9 v0 v2 v4 v6 v8 v11 X_arg2 (n + 1)
        = tripL_k0_t1 (F := F) 𝒱 c bd i arg2 harg2 arg3 harg3 arg4 harg4 arg5 harg5 arg6 harg6 arg7 harg7 arg8 harg8 arg9 harg9 v0 v2 v4 v6 v8 v11 X_arg2 ⟨n, hlt⟩ ++ pb_k0_t1 (F := F) 𝒱 c bd i arg2 harg2 arg3 harg3 arg4 harg4 arg5 harg5 arg6 harg6 arg7 harg7 arg8 harg8 arg9 harg9 v0 v2 v4 v6 v8 v11 X_arg2 n :=
      pb_k0_t1_succ (F := F) 𝒱 c bd i arg2 harg2 arg3 harg3 arg4 harg4 arg5 harg5 arg6 harg6 arg7 harg7 arg8 harg8 arg9 harg9 v0 v2 v4 v6 v8 v11 X_arg2 ⟨n, hlt⟩
    rw [e, tripL_eq, List.singleton_append]
    by_cases hkn : k.val = n
    · obtain rfl : k = ⟨n, hlt⟩ := Fin.ext hkn
      exact View.canon_cons_emb _ _ _ x
    · have hk' : k.val < n := by omega
      refine (View.canon_cons_of_not_mem _ _ ?_).trans (ih (Nat.le_of_lt hlt) k hk' x)
      exact not_mem_rect k ⟨n, hlt⟩ hk' x

end Cert.KernelIdeal.Block

end
-- ==== Proof.Spec.lean ====
/-
  The layer-norm patch gate as functions of coordinates on the extended reals, in two arrangements.

  Writing x for the input at batch b, channel c, row h, column w:
    mu      the mean of x over the 256 channels;
    tn      (x - mu) * rsqrt (var + eps), var the mean over channels of a squared deviation;
    xn      tn * gamma + beta;
    pm      the mean of xn over one 8 x 8 patch of rows and columns;
    hid     z * logistic z with z the sum over channels of pm * W1;
    gate    logistic of the sum over the 32 hidden units of hid * W2;
    out     xn * gate of the patch the pixel lies in.
  The second arrangement ("K" names) takes the variance as the mean of squares minus the squared mean, the patch mean
  as a mean over rows followed by a product with a 0-or-1/8 pooling matrix, moves the affine map outside the patch
  mean, reads the gate back through a 0-or-1 matrix, and distributes the gate over the affine map.
  Nothing here mentions a program: coordinates are plain `Fin`s, float literals stay as their words.
-/
import Idealize.ShloMosaic.PureOps.Ideal

noncomputable section

open Idealize.ShloMosaic

namespace Cert.Spec

/-- Row (or column) `p` of patch `i`. -/
abbrev cell (i : Fin 32) (p : Fin 8) : Fin 256 := ⟨8 * i.val + p.val, by omega⟩
/-- The patch a row (or column) lies in. -/
abbrev patch (h : Fin 256) : Fin 32 := ⟨h.val / 8, by omega⟩

/-- 256.0, 8.0, 64.0 and the epsilon, as the f32 words both programs print. -/
def c256 : EReal := (Ideal.ofBits .f32 0x43800000#32 : Ideal .f32)
def c8 : EReal := (Ideal.ofBits .f32 0x41000000#32 : Ideal .f32)
def c64 : EReal := (Ideal.ofBits .f32 0x42800000#32 : Ideal .f32)
def eps : EReal := (Ideal.ofBits .f32 0x3727C5AC#32 : Ideal .f32)

/-- The 0-or-1 matrix that says column `w` lies in patch `j`. -/
def mask (w : Fin 256) (j : Fin 32) : EReal := if w.val / 8 = j.val then 1 else 0

variable (X : Fin 8 → Fin 256 → Fin 256 → Fin 256 → EReal) (γ β : Fin 256 → EReal)
  (W1 : Fin 32 → Fin 256 → EReal) (W2 : Fin 256 → Fin 32 → EReal)

def mu (b : Fin 8) (h w : Fin 256) : EReal := Ideal.div (∑ c : Fin 256, X b c h w) c256

/-! ### First arrangement -/

def var (b : Fin 8) (h w : Fin 256) : EReal :=
  Ideal.div (∑ c : Fin 256, (X b c h w - mu X b h w) * (X b c h w - mu X b h w)) c256
def tn (b : Fin 8) (c h w : Fin 256) : EReal := (X b c h w - mu X b h w) * Ideal.rsqrt (var X b h w + eps)
def xn (b : Fin 8) (c h w : Fin 256) : EReal := tn X b c h w * γ c + β c
def pm (b : Fin 8) (i j : Fin 32) (c : Fin 256) : EReal :=
  Ideal.div (∑ p : Fin 8, ∑ q : Fin 8, xn X γ β b c (cell i p) (cell j q)) c64
/-- The two gating layers, from any patch means `P` (channel ↦ value). -/
def hidOf (P : Fin 256 → EReal) (r : Fin 32) : EReal :=
  (∑ c : Fin 256, P c * W1 r c) * Ideal.logistic (∑ c : Fin 256, P c * W1 r c)
def gateOf (P : Fin 256 → EReal) (c : Fin 256) : EReal :=
  Ideal.logistic (∑ r : Fin 32, hidOf W1 P r * W2 c r)
def out (b : Fin 8) (c h w : Fin 256) : EReal :=
  xn X γ β b c h w * gateOf W1 W2 (pm X γ β b (patch h) (patch w)) c

/-! ### Second arrangement -/

def varK (b : Fin 8) (h w : Fin 256) : EReal :=
  Ideal.div (∑ c : Fin 256, X b c h w * X b c h w) c256 - mu X b h w * mu X b h w
def tK (b : Fin 8) (c h w : Fin 256) : EReal := (X b c h w - mu X b h w) * Ideal.rsqrt (varK X b h w + eps)
/-- The mean over the 8 rows of patch row `i`. -/
def hmeanK (b : Fin 8) (c : Fin 256) (i : Fin 32) (w : Fin 256) : EReal :=
  Ideal.div (∑ p : Fin 8, tK X b c (cell i p) w) c8
def pmK (b : Fin 8) (i j : Fin 32) (c : Fin 256) : EReal :=
  γ c * (∑ w : Fin 256, hmeanK X b c i w * Ideal.div (mask w j) c8) + β c
/-- The gate of channel `c` read back at column `w` through the 0-or-1 matrix. -/
def gwK (b : Fin 8) (i : Fin 32) (c w : Fin 256) : EReal :=
  ∑ j : Fin 32, gateOf W1 W2 (pmK X γ β b i j) c * mask w j
def outK (b : Fin 8) (c h w : Fin 256) : EReal :=
  tK X b c h w * (γ c * gwK X γ β W1 W2 b (patch h) c w) + β c * gwK X γ β W1 W2 b (patch h) c w

end Cert.Spec

end
-- ==== Proof.LibMiddleUnit.lean ====
/-
  A shape cast that inserts a unit axis in the MIDDLE of a rank-2 array, read at an index.

  A `[a, b]` array cast to `[a, 1, b]` (what `x.reshape(a, 1, b)` lowers to: a per-row vector given a unit row
  axis so that it can be cut into `[1, 1, tile]` blocks) reads, at `(e, u, i)`, the operand at `(e, i)`: both sit at
  row-major position `e · b + i`, the unit coordinate `u` being zero.  The library's leading-unit-axis casts
  (`[a, b] → [1, a, b]`) do not cover this placement of the unit axis.
-/
import Idealize.ShloMosaic.Lib.Pipeline.Value
import Idealize.ShloMosaic.Lib.ValueIdx

noncomputable section

namespace Cert.LibMiddleUnit

open Idealize.ShloMosaic Idealize.ShloMosaic.ValueIdx

/-- An `[a, b]` array cast to `[a, 1, b]` reads, at `(e, u, i)`, the operand at `(e, i)`. -/
theorem shapeCast_ab_a1b_apply {α : Type} {a b : ℕ} (x : (⟨2, ![a, b]⟩ : Shape).Idx → α)
    (h : (⟨2, ![a, b]⟩ : Shape).ShapeCasts ⟨3, ![a, 1, b]⟩) (e : Fin a) (u : Fin 1) (i : Fin b) :
    shapeCast ⟨3, ![a, 1, b]⟩ x h (ix3 e u i) = x (ix2 e i) :=
  shapeCast_apply x h _ _ (by
    rw [Shape.rowMajor_val_two, Shape.rowMajor_val_three]
    show e.val * b + i.val = (e.val * 1 + u.val) * b + i.val
    have hu : u.val = 0 := by have := u.isLt; omega
    rw [hu, Nat.mul_one, Nat.add_zero])

end Cert.LibMiddleUnit

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.KernelPayload.lean ====
/-
  The value one trip stores, read at an index, on the extended reals.

  Writing R c p w for the eight loaded rows (channel c, row p of the eight, column w):
    the normalised rows are (R - M) * rsqrt (E[R^2] - M^2 + eps), M the mean of R over the 256 channels;
    their mean over the eight rows, multiplied with the pooling matrix, then gamma * _ + beta, is the patch mean;
    two small products with a logistic each give the gate per patch, a product with the 0-or-1 matrix reads it
    back per column; the stored value is t * (gamma * g) + beta * g.
  Each layout operation and each lane sum is first read at an index built from coordinates.
-/
import proofs.«130388_j39152921870505_2_alg».proof.Proof.KernelBlock
import proofs.«130388_j39152921870505_2_alg».proof.Proof.Spec
import proofs.«130388_j39152921870505_2_alg».proof.Proof.LibMiddleUnit
import proofs.«130388_j39152921870505_2_alg».proof.Proof.LibKeepdims
import proofs.«130388_j39152921870505_2_alg».proof.Proof.LibPlainMatmul
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.KernelIdeal.Payload

open Cert.KernelIdeal Cert.KernelIdeal.Gen Cert.KernelIdeal.Block

/-! ### Layout operations and lane sums at coordinates -/

theorem rsqrt_at {s : Shape} {φ : FTy} (a : FVec Ideal s φ) (i : s.Idx) : rsqrt a i = Ideal.rsqrt (a i) := rfl
theorem logistic_at {s : Shape} {φ : FTy} (a : FVec Ideal s φ) (i : s.Idx) : logistic a i = Ideal.logistic (a i) := rfl

/-- Dropping the leading unit axis of the eight loaded rows. -/
theorem drop_at {α : Type} (v : S1x256x8x256.Idx → α) (h : S1x256x8x256.ShapeCasts S256x8x256) (c : Fin 256) (p : Fin 8) (w : Fin 256) :
    shapeCast S256x8x256 v h (ix3 c p w) = v (ix4 (0 : Fin 1) c p w) :=
  shapeCast_apply v h _ _ (by
    rw [Shape.rowMajor_val_four, Shape.rowMajor_val_three]
    show (((0 : ℕ) * 256 + c.val) * 8 + p.val) * 256 + w.val = (c.val * 8 + p.val) * 256 + w.val
    omega)

/-- Putting it back. -/
theorem undrop_at {α : Type} (v : S256x8x256.Idx → α) (h : S256x8x256.ShapeCasts S1x256x8x256) (u : Fin 1) (c : Fin 256) (p : Fin 8) (w : Fin 256) :
    shapeCast S1x256x8x256 v h (ix4 u c p w) = v (ix3 c p w) :=
  shapeCast_apply v h _ _ (by
    rw [Shape.rowMajor_val_four, Shape.rowMajor_val_three]
    show (c.val * 8 + p.val) * 256 + w.val = ((u.val * 256 + c.val) * 8 + p.val) * 256 + w.val
    have : u.val = 0 := by omega
    rw [this]; omega)

/-- A per-(row, column) value given a leading unit axis. -/
theorem lead_at {α : Type} (v : S8x256.Idx → α) (h : S8x256.ShapeCasts S1x8x256) (u : Fin 1) (p : Fin 8) (w : Fin 256) :
    shapeCast S1x8x256 v h (ix3 u p w) = v (ix2 p w) :=
  shapeCast_apply v h _ _ (by
    rw [Shape.rowMajor_val_two, Shape.rowMajor_val_three]
    show p.val * 256 + w.val = (u.val * 8 + p.val) * 256 + w.val
    have : u.val = 0 := by omega
    rw [this]; omega)

/-- … and spread over the channels. -/
theorem spread_at {α : Type} (v : S1x8x256.Idx → α) (h : S1x8x256.Broadcasts S256x8x256) (c : Fin 256) (p : Fin 8) (w : Fin 256) :
    broadcastTo S256x8x256 v h (ix3 c p w) = v (ix3 (0 : Fin 1) p w) := by
  refine broadcastTo_apply v h (ix3 c p w) (ix3 (0 : Fin 1) p w) fun ax => ?_
  match ax with
  | ⟨0, _⟩ => rfl
  | ⟨1, _⟩ => rfl
  | ⟨2, _⟩ => rfl

/-- A per-(channel, column) value spread over the eight rows. -/
theorem rows_at {α : Type} (v : S256x1x256.Idx → α) (h : S256x1x256.Broadcasts S256x8x256) (c : Fin 256) (p : Fin 8) (w : Fin 256) :
    broadcastTo S256x8x256 v h (ix3 c p w) = v (ix3 c (0 : Fin 1) w) := by
  refine broadcastTo_apply v h (ix3 c p w) (ix3 c (0 : Fin 1) w) fun ax => ?_
  match ax with
  | ⟨0, _⟩ => rfl
  | ⟨1, _⟩ => rfl
  | ⟨2, _⟩ => rfl

/-- The sum over the channels of a [256, 8, 256] value. -/
theorem sum_channels (src : FVec Ideal S256x8x256 .f32) (h : S256x8x256.Reduces [0] S8x256) (hφ : FKind.Formats .f32)
    (hacc : (0x00000000#32 : BitVec 32) = 0x00000000#32) (p : Fin 8) (w : Fin 256) :
    multiReduction .add [0] S8x256 src 0x00000000#32 h hφ hacc (ix2 p w) = ∑ c : Fin 256, src (ix3 c p w) :=
  (Ideal.multiReduction_add_single src _ h hφ hacc (ix2 p w)).trans
    (Finset.sum_congr rfl fun c _ => congrArg src (funext fun a => Fin.ext (by
      match a with
      | ⟨0, _⟩ => rfl
      | ⟨1, _⟩ => rfl
      | ⟨2, _⟩ => rfl)))

/-- The sum over the eight rows of a [256, 8, 256] value. -/
theorem sum_rows (src : FVec Ideal S256x8x256 .f32) (h : S256x8x256.Reduces [1] S256x256) (hφ : FKind.Formats .f32)
    (hacc : (0x00000000#32 : BitVec 32) = 0x00000000#32) (c : Fin 256) (w : Fin 256) :
    multiReduction .add [1] S256x256 src 0x00000000#32 h hφ hacc (ix2 c w) = ∑ p : Fin 8, src (ix3 c p w) :=
  (Ideal.multiReduction_add_single src _ h hφ hacc (ix2 c w)).trans
    (Finset.sum_congr rfl fun p _ => congrArg src (funext fun a => Fin.ext (by
      match a with
      | ⟨0, _⟩ => rfl
      | ⟨1, _⟩ => rfl
      | ⟨2, _⟩ => rfl)))

/-! ### The normalised rows -/

/-- The normalised rows at (c, p, w), from the loaded rows. -/
theorem pay8_at (v18 : Vec Ideal S1x256x8x256 .f32) (c : Fin 256) (p : Fin 8) (w : Fin 256) :
    k0_pay8 (F := Ideal) v18 (ix3 c p w)
      = (v18 (ix4 (0 : Fin 1) c p w) - Ideal.div (∑ c' : Fin 256, v18 (ix4 (0 : Fin 1) c' p w)) Cert.Spec.c256)
        * Ideal.rsqrt (Ideal.div (∑ c' : Fin 256, v18 (ix4 (0 : Fin 1) c' p w) * v18 (ix4 (0 : Fin 1) c' p w)) Cert.Spec.c256
            - Ideal.div (∑ c' : Fin 256, v18 (ix4 (0 : Fin 1) c' p w)) Cert.Spec.c256
              * Ideal.div (∑ c' : Fin 256, v18 (ix4 (0 : Fin 1) c' p w)) Cert.Spec.c256
            + Cert.Spec.eps) := by
  unfold k0_pay8
  simp only [mulf_apply, subf_apply, addf_apply, divf_apply, broadcast_apply, rsqrt_at, spread_at, lead_at]
  rw [sum_channels, sum_channels]
  simp only [mulf_apply, drop_at]
  rfl

/-! ### The four products, each a plain [M, K] · [K, N] into the zero splat -/

theorem mm_pool_at {φ₁ φ₂ : FTy} (prec : Option ContractPrecision) (lhs : FVec Ideal S256x256 φ₁) (rhs : FVec Ideal S256x32 φ₂)
    (a : Fin 256) (b : Fin 32) :
    matmul dot_S256x256_S256x32_S256x32_1_0_0_1_n_n prec lhs rhs (constant S256x32 .f32 0x00000000#32) (ix2 a b)
      = ∑ k : Fin 256, lhs (ix2 a k) * rhs (ix2 k b) :=
  Cert.LibPlainMatmul.matmul_zero_at dot_S256x256_S256x32_S256x32_1_0_0_1_n_n prec rfl rfl
    (fun i q => by
      unfold DotDims.lhsIdx
      rw [dif_neg (show ¬(0 : Fin S256x256.rank) ∈ dot_S256x256_S256x32_S256x32_1_0_0_1_n_n.lhsBatch by decide),
        dif_pos (show (0 : Fin S256x256.rank) ∈ dot_S256x256_S256x32_S256x32_1_0_0_1_n_n.lhsNonContracting by decide)]
      rfl)
    (fun i q => dot_S256x256_S256x32_S256x32_1_0_0_1_n_n.lhsIdx_val_of_single rfl i q)
    (fun i q => dot_S256x256_S256x32_S256x32_1_0_0_1_n_n.rhsIdx_val_of_single rfl i q)
    (fun i q => by
      unfold DotDims.rhsIdx
      rw [dif_neg (show ¬(1 : Fin S256x32.rank) ∈ dot_S256x256_S256x32_S256x32_1_0_0_1_n_n.rhsBatch by decide),
        dif_pos (show (1 : Fin S256x32.rank) ∈ dot_S256x256_S256x32_S256x32_1_0_0_1_n_n.rhsNonContracting by decide)]
      rfl)
    lhs rhs a b

theorem mm_w1_at {φ₁ φ₂ : FTy} (prec : Option ContractPrecision) (lhs : FVec Ideal S32x256 φ₁) (rhs : FVec Ideal S256x32 φ₂)
    (a : Fin 32) (b : Fin 32) :
    matmul dot_S32x256_S256x32_S32x32_1_0_0_1_n_n prec lhs rhs (constant S32x32 .f32 0x00000000#32) (ix2 a b)
      = ∑ k : Fin 256, lhs (ix2 a k) * rhs (ix2 k b) :=
  Cert.LibPlainMatmul.matmul_zero_at dot_S32x256_S256x32_S32x32_1_0_0_1_n_n prec rfl rfl
    (fun i q => by
      unfold DotDims.lhsIdx
      rw [dif_neg (show ¬(0 : Fin S32x256.rank) ∈ dot_S32x256_S256x32_S32x32_1_0_0_1_n_n.lhsBatch by decide),
        dif_pos (show (0 : Fin S32x256.rank) ∈ dot_S32x256_S256x32_S32x32_1_0_0_1_n_n.lhsNonContracting by decide)]
      rfl)
    (fun i q => dot_S32x256_S256x32_S32x32_1_0_0_1_n_n.lhsIdx_val_of_single rfl i q)
    (fun i q => dot_S32x256_S256x32_S32x32_1_0_0_1_n_n.rhsIdx_val_of_single rfl i q)
    (fun i q => by
      unfold DotDims.rhsIdx
      rw [dif_neg (show ¬(1 : Fin S256x32.rank) ∈ dot_S32x256_S256x32_S32x32_1_0_0_1_n_n.rhsBatch by decide),
        dif_pos (show (1 : Fin S256x32.rank) ∈ dot_S32x256_S256x32_S32x32_1_0_0_1_n_n.rhsNonContracting by decide)]
      rfl)
    lhs rhs a b

theorem mm_w2_at {φ₁ φ₂ : FTy} (prec : Option ContractPrecision) (lhs : FVec Ideal S32x32 φ₁) (rhs : FVec Ideal S32x256 φ₂)
    (a : Fin 32) (b : Fin 256) :
    matmul dot_S32x32_S32x256_S32x256_1_0_0_1_n_n prec lhs rhs (constant S32x256 .f32 0x00000000#32) (ix2 a b)
      = ∑ k : Fin 32, lhs (ix2 a k) * rhs (ix2 k b) :=
  Cert.LibPlainMatmul.matmul_zero_at dot_S32x32_S32x256_S32x256_1_0_0_1_n_n prec rfl rfl
    (fun i q => by
      unfold DotDims.lhsIdx
      rw [dif_neg (show ¬(0 : Fin S32x32.rank) ∈ dot_S32x32_S32x256_S32x256_1_0_0_1_n_n.lhsBatch by decide),
        dif_pos (show (0 : Fin S32x32.rank) ∈ dot_S32x32_S32x256_S32x256_1_0_0_1_n_n.lhsNonContracting by decide)]
      rfl)
    (fun i q => dot_S32x32_S32x256_S32x256_1_0_0_1_n_n.lhsIdx_val_of_single rfl i q)
    (fun i q => dot_S32x32_S32x256_S32x256_1_0_0_1_n_n.rhsIdx_val_of_single rfl i q)
    (fun i q => by
      unfold DotDims.rhsIdx
      rw [dif_neg (show ¬(1 : Fin S32x256.rank) ∈ dot_S32x32_S32x256_S32x256_1_0_0_1_n_n.rhsBatch by decide),
        dif_pos (show (1 : Fin S32x256.rank) ∈ dot_S32x32_S32x256_S32x256_1_0_0_1_n_n.rhsNonContracting by decide)]
      rfl)
    lhs rhs a b

theorem mm_unpool_at {φ₁ φ₂ : FTy} (prec : Option ContractPrecision) (lhs : FVec Ideal S256x32 φ₁) (rhs : FVec Ideal S32x256 φ₂)
    (a : Fin 256) (b : Fin 256) :
    matmul dot_S256x32_S32x256_S256x256_1_0_0_1_n_n prec lhs rhs (constant S256x256 .f32 0x00000000#32) (ix2 a b)
      = ∑ k : Fin 32, lhs (ix2 a k) * rhs (ix2 k b) :=
  Cert.LibPlainMatmul.matmul_zero_at dot_S256x32_S32x256_S256x256_1_0_0_1_n_n prec rfl rfl
    (fun i q => by
      unfold DotDims.lhsIdx
      rw [dif_neg (show ¬(0 : Fin S256x32.rank) ∈ dot_S256x32_S32x256_S256x256_1_0_0_1_n_n.lhsBatch by decide),
        dif_pos (show (0 : Fin S256x32.rank) ∈ dot_S256x32_S32x256_S256x256_1_0_0_1_n_n.lhsNonContracting by decide)]
      rfl)
    (fun i q => dot_S256x32_S32x256_S256x256_1_0_0_1_n_n.lhsIdx_val_of_single rfl i q)
    (fun i q => dot_S256x32_S32x256_S256x256_1_0_0_1_n_n.rhsIdx_val_of_single rfl i q)
    (fun i q => by
      unfold DotDims.rhsIdx
      rw [dif_neg (show ¬(1 : Fin S32x256.rank) ∈ dot_S256x32_S32x256_S256x256_1_0_0_1_n_n.rhsBatch by decide),
        dif_pos (show (1 : Fin S32x256.rank) ∈ dot_S256x32_S32x256_S256x256_1_0_0_1_n_n.rhsNonContracting by decide)]
      rfl)
    lhs rhs a b

/-- The two transposes. -/
theorem tr_to_32x256_at {α : Type} (v : S256x32.Idx → α) (h : S256x32.Transposes [1, 0] S32x256) (j : Fin 32) (c : Fin 256) :
    transpose S32x256 [1, 0] v h (ix2 j c) = v (ix2 c j) :=
  transpose_apply [1, 0] v h (ix2 j c) (ix2 c j) (fun b => match b with
    | ⟨0, _⟩ => rfl
    | ⟨1, _⟩ => rfl)

theorem tr_to_256x32_at {α : Type} (v : S32x256.Idx → α) (h : S32x256.Transposes [1, 0] S256x32) (c : Fin 256) (j : Fin 32) :
    transpose S256x32 [1, 0] v h (ix2 c j) = v (ix2 j c) :=
  transpose_apply [1, 0] v h (ix2 c j) (ix2 j c) (fun b => match b with
    | ⟨0, _⟩ => rfl
    | ⟨1, _⟩ => rfl)

/-- A column spread over 32 or 256 columns. -/
theorem col32_at {α : Type} (v : S256x1.Idx → α) (h : S256x1.Broadcasts S256x32) (c : Fin 256) (j : Fin 32) :
    broadcastTo S256x32 v h (ix2 c j) = v (ix2 c (0 : Fin 1)) := Cert.Keepdims.broadcastTo_a1_ab_apply v h c j
theorem col256_at {α : Type} (v : S256x1.Idx → α) (h : S256x1.Broadcasts S256x256) (c : Fin 256) (w : Fin 256) :
    broadcastTo S256x256 v h (ix2 c w) = v (ix2 c (0 : Fin 1)) := Cert.Keepdims.broadcastTo_a1_ab_apply v h c w

/-! ### The same row sum and transposes as plain functions of the index

The lane sum over the eight rows and the two transposes, restated as functions that take their index apart: the
printed operations equal these as functions, and these read at coordinates by unfolding. -/

def rowSum (src : FVec Ideal S256x8x256 .f32) : FVec Ideal S256x256 .f32 :=
  fun i => ∑ p : Fin 8, src (ix3 (n0 := 256) (n2 := 256) (i 0) p (i 1))
theorem rowSum_at (src : FVec Ideal S256x8x256 .f32) (c w : Fin 256) : rowSum src (ix2 c w) = ∑ p : Fin 8, src (ix3 c p w) := rfl
theorem sum_rows_fn (src : FVec Ideal S256x8x256 .f32) (h : S256x8x256.Reduces [1] S256x256) (hφ : FKind.Formats .f32)
    (hacc : (0x00000000#32 : BitVec 32) = 0x00000000#32) :
    multiReduction .add [1] S256x256 src 0x00000000#32 h hφ hacc = rowSum src := by
  funext i
  rw [eq_ix2 i]
  exact sum_rows src h hφ hacc (i 0) (i 1)

def flipTo32 {α : Type} (v : S256x32.Idx → α) : S32x256.Idx → α := fun i => v (ix2 (n0 := 256) (n1 := 32) (i 1) (i 0))
theorem flipTo32_at {α : Type} (v : S256x32.Idx → α) (j : Fin 32) (c : Fin 256) : flipTo32 v (ix2 j c) = v (ix2 c j) := rfl
theorem tr_to_32x256_fn {α : Type} (v : S256x32.Idx → α) (h : S256x32.Transposes [1, 0] S32x256) :
    transpose S32x256 [1, 0] v h = flipTo32 v := by
  funext i
  rw [eq_ix2 i]
  exact tr_to_32x256_at v h (i 0) (i 1)

def flipTo256 {α : Type} (v : S32x256.Idx → α) : S256x32.Idx → α := fun i => v (ix2 (n0 := 32) (n1 := 256) (i 1) (i 0))
theorem flipTo256_at {α : Type} (v : S32x256.Idx → α) (c : Fin 256) (j : Fin 32) : flipTo256 v (ix2 c j) = v (ix2 j c) := rfl
theorem tr_to_256x32_fn {α : Type} (v : S32x256.Idx → α) (h : S32x256.Transposes [1, 0] S256x32) :
    transpose S256x32 [1, 0] v h = flipTo256 v := by
  funext i
  rw [eq_ix2 i]
  exact tr_to_256x32_at v h (i 0) (i 1)

/-! ### The gate read back per column -/

/-- The product with the 0-or-1 matrix at (c, w): the sum over the 32 patches of the gate of the patch mean, times
    the matrix entry. The patch mean is gamma * (the row mean times the pooling matrix) + beta. -/
theorem pay9_at (v1 v3 : FVec Ideal S256x1 .f32) (v5 : FVec Ideal S256x32 .f32) (v7 : FVec Ideal S32x256 .f32)
    (v10 : FVec Ideal S256x32 .bf16) (v13 : FVec Ideal S32x256 .bf16) (v18 : Vec Ideal S1x256x8x256 .f32)
    (c : Fin 256) (w : Fin 256) :
    k0_pay9 (F := Ideal) v1 v3 v5 v7 v10 v13 v18 (ix2 c w)
      = ∑ j : Fin 32,
          Cert.Spec.gateOf (fun r c' => v10 (ix2 c' r)) (fun c' r => v13 (ix2 r c'))
            (fun c' => v1 (ix2 c' (0 : Fin 1))
                * (∑ w' : Fin 256, Ideal.div (∑ p : Fin 8, k0_pay8 (F := Ideal) v18 (ix3 c' p w')) Cert.Spec.c8 * v5 (ix2 w' j))
              + v3 (ix2 c' (0 : Fin 1))) c
            * v7 (ix2 j w) := by
  unfold k0_pay9
  rw [sum_rows_fn, tr_to_32x256_fn, tr_to_256x32_fn]
  simp only [mm_unpool_at, mm_w2_at, mm_w1_at, mm_pool_at, flipTo256_at, flipTo32_at, logistic_at, mulf_apply, addf_apply,
    divf_apply, truncf_apply, col32_at, rowSum_at, broadcast_apply, Cert.Spec.gateOf, Cert.Spec.hidOf]
  rfl

/-! ### The stored value -/

theorem pay1_eq (v0 : Vec Ideal S256x1 .f32) : k0_pay1 (F := Ideal) v0 = v0 := by unfold k0_pay1; exact shapeCast_self v0 _
theorem pay2_eq (v2 : Vec Ideal S256x1 .f32) : k0_pay2 (F := Ideal) v2 = v2 := by unfold k0_pay2; exact shapeCast_self v2 _
theorem pay3_eq (v4 : Vec Ideal S256x32 .f32) : k0_pay3 (F := Ideal) v4 = v4 := by unfold k0_pay3; exact shapeCast_self v4 _
theorem pay4_eq (v6 : Vec Ideal S32x256 .f32) : k0_pay4 (F := Ideal) v6 = v6 := by unfold k0_pay4; exact shapeCast_self v6 _
theorem pay5_at (v8 : Vec Ideal S256x32 .f32) (i : S256x32.Idx) : k0_pay5 (F := Ideal) v8 i = v8 i := by
  unfold k0_pay5; rw [truncf_apply, shapeCast_self]
theorem pay6_at (v11 : Vec Ideal S32x256 .f32) (i : S32x256.Idx) : k0_pay6 (F := Ideal) v11 i = v11 i := by
  unfold k0_pay6; rw [truncf_apply, shapeCast_self]

theorem pay10_at (v1 v3 : FVec Ideal S256x1 .f32) (v5 : FVec Ideal S256x32 .f32) (v7 : FVec Ideal S32x256 .f32)
    (v10 : FVec Ideal S256x32 .bf16) (v13 : FVec Ideal S32x256 .bf16) (v18 : Vec Ideal S1x256x8x256 .f32) (c w : Fin 256) :
    k0_pay10 (F := Ideal) v1 v3 v5 v7 v10 v13 v18 (ix2 c w)
      = v1 (ix2 c (0 : Fin 1)) * k0_pay9 (F := Ideal) v1 v3 v5 v7 v10 v13 v18 (ix2 c w) := by
  unfold k0_pay10
  simp only [mulf_apply, col256_at]

theorem pay11_at (v3 : FVec Ideal S256x1 .f32) (c w : Fin 256) :
    k0_pay11 (F := Ideal) v3 (ix2 c w) = v3 (ix2 c (0 : Fin 1)) := by
  unfold k0_pay11
  exact col256_at v3 _ c w

/-- The stored value at (c, p, w): the normalised row times its coefficient, plus the offset. -/
theorem pay7_at (v37 : FVec Ideal S256x8x256 .f32) (v55 v57 v58 : FVec Ideal S256x256 .f32) (u : Fin 1) (c : Fin 256) (p : Fin 8)
    (w : Fin 256) :
    k0_pay7 (F := Ideal) v37 v55 v57 v58 (ix4 u c p w)
      = v37 (ix3 c p w) * v57 (ix2 c w) + v58 (ix2 c w) * v55 (ix2 c w) := by
  unfold k0_pay7
  simp only [undrop_at, addf_apply, mulf_apply, rows_at, shapeCast_self, Cert.LibMiddleUnit.shapeCast_ab_a1b_apply]

theorem patch_cell (i : Fin 32) (p : Fin 8) : Cert.Spec.patch (Cert.Spec.cell i p) = i :=
  Fin.ext (by show (8 * i.val + p.val) / 8 = i.val; omega)

/-- One trip's stored value is the second arrangement of the specification, once the eight loaded rows are rows
    8i .. 8i+7 of batch b of X, the two columns are gamma and beta, the two matrices are the pooling matrix and the
    0-or-1 matrix, and the two weight blocks are W1 and W2 transposed. -/
theorem tripVal_at (X : Fin 8 → Fin 256 → Fin 256 → Fin 256 → EReal) (γ β : Fin 256 → EReal)
    (W1 : Fin 32 → Fin 256 → EReal) (W2 : Fin 256 → Fin 32 → EReal) (b : Fin 8) (i : Fin 32)
    (v0 v2 : Vec Ideal S256x1 .f32) (v4 : Vec Ideal S256x32 .f32) (v6 : Vec Ideal S32x256 .f32) (v8 : Vec Ideal S256x32 .f32)
    (v11 : Vec Ideal S32x256 .f32) (v18 : Vec Ideal S1x256x8x256 .f32)
    (h18 : ∀ (c : Fin 256) (p : Fin 8) (w : Fin 256), v18 (ix4 (0 : Fin 1) c p w) = X b c (Cert.Spec.cell i p) w)
    (h0 : ∀ c : Fin 256, v0 (ix2 c (0 : Fin 1)) = γ c) (h2 : ∀ c : Fin 256, v2 (ix2 c (0 : Fin 1)) = β c)
    (h4 : ∀ (w : Fin 256) (j : Fin 32), v4 (ix2 w j) = Ideal.div (Cert.Spec.mask w j) Cert.Spec.c8)
    (h6 : ∀ (j : Fin 32) (w : Fin 256), v6 (ix2 j w) = Cert.Spec.mask w j)
    (h8 : ∀ (c : Fin 256) (r : Fin 32), v8 (ix2 c r) = W1 r c) (h11 : ∀ (r : Fin 32) (c : Fin 256), v11 (ix2 r c) = W2 c r)
    (u : Fin 1) (c : Fin 256) (p : Fin 8) (w : Fin 256) :
    tripVal v0 v2 v4 v6 v8 v11 v18 (ix4 u c p w) = Cert.Spec.outK X γ β W1 W2 b c (Cert.Spec.cell i p) w := by
  unfold tripVal
  rw [pay7_at, pay10_at, pay11_at, pay9_at]
  simp only [pay8_at, pay1_eq, pay2_eq, pay3_eq, pay4_eq, pay5_at, pay6_at, h18, h0, h2, h4, h6, h8, h11]
  simp only [Cert.Spec.outK, Cert.Spec.gwK, Cert.Spec.pmK, Cert.Spec.hmeanK, Cert.Spec.tK, Cert.Spec.varK, Cert.Spec.mu, patch_cell]
  rfl

end Cert.KernelIdeal.Payload

end
-- ==== Proof.KernelWindows.lean ====
/-
  The six small operands of the body as the region finds them: the host computes them before the call.
  gamma and beta are the two per-channel vectors as columns; the two weight matrices are transposed; the pooling
  matrix and the 0-or-1 matrix come from comparing floor (w / 8) with j for w < 256, j < 32 — the floor division
  the host spells with a quotient toward zero, two sign tests, a remainder test and a select, which for 0 ≤ w < 256
  is w / 8 (checked over the 256 values).
-/
import proofs.«130388_j39152921870505_2_alg».proof.Proof.Gen.KernelIdeal.Value
import proofs.«130388_j39152921870505_2_alg».proof.Proof.Spec
import proofs.«130388_j39152921870505_2_alg».proof.Proof.LibKeepdims
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.Lib.Tactic
import Idealize.ShloMosaic.PureOps.Ideal

set_option maxRecDepth 16384

noncomputable section

open Idealize.ShloMosaic Idealize.ShloMosaic.TcCoe Idealize.SL.Sem Idealize.ShloMosaic.Tactic Idealize.ShloMosaic.ValueIdx

namespace Cert.KernelIdeal.Windows

open Cert.KernelIdeal Cert.KernelIdeal.Gen

/-! ### The host's integer and mask arrays -/

def eightS : IVec S_ 32 := id (constantI S_ 32 8#32)
def rowsI : IVec S256x1 32 := broadcastInDim S256x1 ![0] bcast_S256_S256x1_0 (iotaInDim S256 32 0)
def quotI : IVec S256x1 32 := Host.divsi rowsI (broadcastInDim S256x1 ![] bcast_S_S256x1 eightS)
/-- floor (w / 8) as the host computes it. -/
def floorI : IVec S256x1 32 :=
  select
    (andi (cmpi .ne (signi rowsI) (broadcastInDim S256x1 ![] bcast_S_S256x1 (signi eightS)))
      (cmpi .ne (Host.remsi rowsI (broadcastInDim S256x1 ![] bcast_S_S256x1 eightS))
        (broadcastInDim S256x1 ![] bcast_S_S256x1 (constantI S_ 32 0#32))))
    (subi quotI (broadcastInDim S256x1 ![] bcast_S_S256x1 (constantI S_ 32 1#32)))
    quotI
def maskI : IVec S256x32 1 :=
  cmpi .eq (broadcastInDim S256x32 ![0, 1] bcast_S256x1_S256x32_0_1 floorI)
    (broadcastInDim S256x32 ![0, 1] bcast_S1x32_S256x32_0_1 (broadcastInDim S1x32 ![1] bcast_S32_S1x32_1 (iotaInDim S32 32 0)))
def maskF : FVec Ideal S256x32 .f32 := uitofp .f32 maskI
def poolW : FVec Ideal S256x32 .f32 :=
  Host.divf maskF (broadcastInDim S256x32 ![] bcast_S_S256x32 (constant (F := Ideal) S_ .f32 0x41000000#32))
def expandW : FVec Ideal S32x256 .f32 := transpose S32x256 [1, 0] maskF transposes_S256x32_S32x256_1_0

/-! ### Read at coordinates -/

/-- The sign of a word as a word. -/
def sgn (y : BitVec 32) : BitVec 32 := if y = 0 then 0 else if y.msb then -1 else 1

/-- floor division by 8 on one word, as the host spells it. -/
def floor8 (x : BitVec 32) : BitVec 32 :=
  Scalar.select
    (IntOp.andi (IntOp.cmpi .ne (sgn x) (sgn 8#32)) (IntOp.cmpi .ne (IntOp.remsi .host x 8#32) 0#32))
    (IntOp.subi (IntOp.divsi .host x 8#32) 1#32) (IntOp.divsi .host x 8#32)

/-- For 0 ≤ w < 256 and 0 ≤ j < 32 the comparison of floor (w / 8) with j is the comparison of the natural numbers. -/
theorem mask_word : ∀ (w : Fin 256) (j : Fin 32),
    IntOp.cmpi .eq (floor8 (BitVec.ofNat 32 w.val)) (BitVec.ofNat 32 j.val) = if w.val / 8 = j.val then 1#1 else 0#1 := by
  decide +kernel

theorem rowsI_at (w : Fin 256) (u : Fin 1) : rowsI (ix2 w u) = BitVec.ofNat 32 w.val := by
  unfold rowsI
  refine (broadcastInDim_apply ![0] bcast_S256_S256x1_0 (iotaInDim S256 32 0) (ix2 w u) (ix1 w) (fun a => ?_)).trans rfl
  match a with
  | ⟨0, _⟩ => rfl

theorem floorI_at (w : Fin 256) (u : Fin 1) : floorI (ix2 w u) = floor8 (BitVec.ofNat 32 w.val) := by
  have hq : quotI (ix2 w u) = IntOp.divsi .host (rowsI (ix2 w u)) 8#32 := by
    show IntOp.divsi .host (rowsI (ix2 w u)) (broadcastInDim S256x1 ![] bcast_S_S256x1 eightS (ix2 w u)) = _
    rw [broadcastInDim_scalar_apply]; rfl
  show Scalar.select
      (IntOp.andi
        (IntOp.cmpi .ne (sgn (rowsI (ix2 w u))) (broadcastInDim S256x1 ![] bcast_S_S256x1 (signi eightS) (ix2 w u)))
        (IntOp.cmpi .ne
          (IntOp.remsi .host (rowsI (ix2 w u)) (broadcastInDim S256x1 ![] bcast_S_S256x1 eightS (ix2 w u)))
          (broadcastInDim S256x1 ![] bcast_S_S256x1 (constantI S_ 32 0#32) (ix2 w u))))
      (IntOp.subi (quotI (ix2 w u)) (broadcastInDim S256x1 ![] bcast_S_S256x1 (constantI S_ 32 1#32) (ix2 w u)))
      (quotI (ix2 w u)) = _
  rw [broadcastInDim_scalar_apply, broadcastInDim_scalar_apply, broadcastInDim_scalar_apply, broadcastInDim_scalar_apply, hq,
    rowsI_at]
  rfl

/-- A column spread over the 32 patch columns, a row spread over the 256 rows, and the patch index as a row. -/
theorem spreadCol_at {α : Type} (x : S256x1.Idx → α) (w : Fin 256) (j : Fin 32) :
    broadcastInDim S256x32 ![0, 1] bcast_S256x1_S256x32_0_1 x (ix2 w j) = x (ix2 w (0 : Fin 1)) :=
  broadcastInDim_apply ![0, 1] bcast_S256x1_S256x32_0_1 x (ix2 w j) (ix2 w (0 : Fin 1)) (fun a => by
    match a with
    | ⟨0, _⟩ => rfl
    | ⟨1, _⟩ => rfl)
theorem spreadRow_at {α : Type} (x : S1x32.Idx → α) (w : Fin 256) (j : Fin 32) :
    broadcastInDim S256x32 ![0, 1] bcast_S1x32_S256x32_0_1 x (ix2 w j) = x (ix2 (0 : Fin 1) j) :=
  broadcastInDim_apply ![0, 1] bcast_S1x32_S256x32_0_1 x (ix2 w j) (ix2 (0 : Fin 1) j) (fun a => by
    match a with
    | ⟨0, _⟩ => rfl
    | ⟨1, _⟩ => rfl)
theorem patchRow_at (u : Fin 1) (j : Fin 32) :
    broadcastInDim S1x32 ![1] bcast_S32_S1x32_1 (iotaInDim S32 32 0) (ix2 u j) = BitVec.ofNat 32 j.val :=
  (broadcastInDim_apply ![1] bcast_S32_S1x32_1 (iotaInDim S32 32 0) (ix2 u j) (ix1 j) (fun a => by
    match a with
    | ⟨0, _⟩ => rfl)).trans rfl

theorem maskI_at (w : Fin 256) (j : Fin 32) : maskI (ix2 w j) = if w.val / 8 = j.val then 1#1 else 0#1 := by
  show IntOp.cmpi .eq (broadcastInDim S256x32 ![0, 1] bcast_S256x1_S256x32_0_1 floorI (ix2 w j))
      (broadcastInDim S256x32 ![0, 1] bcast_S1x32_S256x32_0_1
        (broadcastInDim S1x32 ![1] bcast_S32_S1x32_1 (iotaInDim S32 32 0)) (ix2 w j)) = _
  rw [spreadCol_at, spreadRow_at, patchRow_at, floorI_at]
  exact mask_word w j

/-- The 0-or-1 matrix of the specification. -/
theorem maskF_at (w : Fin 256) (j : Fin 32) : maskF (ix2 w j) = Cert.Spec.mask w j := by
  show (((maskI (ix2 w j)).toNat : ℝ) : EReal) = _
  rw [maskI_at]
  unfold Cert.Spec.mask
  by_cases h : w.val / 8 = j.val
  · rw [if_pos h, if_pos h]; simp
  · rw [if_neg h, if_neg h]; simp

theorem poolW_at (w : Fin 256) (j : Fin 32) : poolW (ix2 w j) = Ideal.div (Cert.Spec.mask w j) Cert.Spec.c8 := by
  show Ideal.div (maskF (ix2 w j)) _ = _
  rw [maskF_at]
  rfl

theorem expandW_at (j : Fin 32) (w : Fin 256) : expandW (ix2 j w) = Cert.Spec.mask w j := by
  unfold expandW
  refine (transpose_apply [1, 0] maskF transposes_S256x32_S32x256_1_0 (ix2 j w) (ix2 w j) (fun b => ?_)).trans (maskF_at w j)
  match b with
  | ⟨0, _⟩ => rfl
  | ⟨1, _⟩ => rfl

/-! ### What the region finds in the six small arrays -/

variable (m : (ℓ : Loc nD τ sig) → Buf (Elt Ideal) ℓ)

set_option maxHeartbeats 1000000 in
theorem V14_eq (c : Dev nD) : (V m c main_v14 : S256x32.Idx → EReal) = poolW := by
  dsimp only [V]
  simp only [hostOps0, hostOps0_1, hostOps0_2, List.flatten_cons, List.flatten_nil, List.append_nil, List.cons_append, List.nil_append]
  after_results_simp
  rfl

set_option maxHeartbeats 1000000 in
theorem V15_eq (c : Dev nD) : (V m c main_v15 : S32x256.Idx → EReal) = expandW := by
  dsimp only [V]
  simp only [hostOps0, hostOps0_1, hostOps0_2, List.flatten_cons, List.flatten_nil, List.append_nil, List.cons_append, List.nil_append]
  after_results_simp
  rfl

set_option maxHeartbeats 1000000 in
theorem V0_eq (c : Dev nD) : (V m c main_v0 : S256x1.Idx → EReal)
    = shapeCast S256x1 (m ((c : Thread nD τ).loc main_arg1) : S256.Idx → EReal) shapeCasts_S256_S256x1 := by
  dsimp only [V]
  simp only [hostOps0, hostOps0_1, hostOps0_2, List.flatten_cons, List.flatten_nil, List.append_nil, List.cons_append, List.nil_append]
  after_results_simp
  rfl

set_option maxHeartbeats 1000000 in
theorem V1_eq (c : Dev nD) : (V m c main_v1 : S256x1.Idx → EReal)
    = shapeCast S256x1 (m ((c : Thread nD τ).loc main_arg2) : S256.Idx → EReal) shapeCasts_S256_S256x1 := by
  dsimp only [V]
  simp only [hostOps0, hostOps0_1, hostOps0_2, List.flatten_cons, List.flatten_nil, List.append_nil, List.cons_append, List.nil_append]
  after_results_simp
  rfl

set_option maxHeartbeats 1000000 in
theorem V2_eq (c : Dev nD) : (V m c main_v2 : S256x32.Idx → EReal)
    = transpose S256x32 [1, 0] (m ((c : Thread nD τ).loc main_arg3) : S32x256.Idx → EReal) transposes_S32x256_S256x32_1_0 := by
  dsimp only [V]
  simp only [hostOps0, hostOps0_1, hostOps0_2, List.flatten_cons, List.flatten_nil, List.append_nil, List.cons_append, List.nil_append]
  after_results_simp

set_option maxHeartbeats 1000000 in
theorem V3_eq (c : Dev nD) : (V m c main_v3 : S32x256.Idx → EReal)
    = transpose S32x256 [1, 0] (m ((c : Thread nD τ).loc main_arg4) : S256x32.Idx → EReal) transposes_S256x32_S32x256_1_0 := by
  dsimp only [V]
  simp only [hostOps0, hostOps0_1, hostOps0_2, List.flatten_cons, List.flatten_nil, List.append_nil, List.cons_append, List.nil_append]
  after_results_simp

/-- gamma as a column. -/
theorem V0_at (c : Dev nD) (k : Fin 256) :
    (V m c main_v0 : S256x1.Idx → EReal) (ix2 k (0 : Fin 1)) = (m ((c : Thread nD τ).loc main_arg1) : S256.Idx → EReal) (ix1 k) := by
  exact (congrFun (V0_eq m c) _).trans (Cert.Keepdims.shapeCast_a_a1_apply _ _ k 0)
/-- beta as a column. -/
theorem V1_at (c : Dev nD) (k : Fin 256) :
    (V m c main_v1 : S256x1.Idx → EReal) (ix2 k (0 : Fin 1)) = (m ((c : Thread nD τ).loc main_arg2) : S256.Idx → EReal) (ix1 k) := by
  exact (congrFun (V1_eq m c) _).trans (Cert.Keepdims.shapeCast_a_a1_apply _ _ k 0)
/-- The first weight matrix transposed. -/
theorem V2_at (c : Dev nD) (k : Fin 256) (r : Fin 32) :
    (V m c main_v2 : S256x32.Idx → EReal) (ix2 k r) = (m ((c : Thread nD τ).loc main_arg3) : S32x256.Idx → EReal) (ix2 r k) := by
  exact (congrFun (V2_eq m c) _).trans (transpose_apply [1, 0] _ transposes_S32x256_S256x32_1_0 (ix2 k r) (ix2 r k) (fun b => match b with
    | ⟨0, _⟩ => rfl
    | ⟨1, _⟩ => rfl))
/-- The second weight matrix transposed. -/
theorem V3_at (c : Dev nD) (r : Fin 32) (k : Fin 256) :
    (V m c main_v3 : S32x256.Idx → EReal) (ix2 r k) = (m ((c : Thread nD τ).loc main_arg4) : S256x32.Idx → EReal) (ix2 k r) := by
  exact (congrFun (V3_eq m c) _).trans (transpose_apply [1, 0] _ transposes_S256x32_S32x256_1_0 (ix2 r k) (ix2 k r) (fun b => match b with
    | ⟨0, _⟩ => rfl
    | ⟨1, _⟩ => rfl))
theorem V14_at (c : Dev nD) (w : Fin 256) (j : Fin 32) :
    (V m c main_v14 : S256x32.Idx → EReal) (ix2 w j) = Ideal.div (Cert.Spec.mask w j) Cert.Spec.c8 := by
  exact (congrFun (V14_eq m c) _).trans (poolW_at w j)
theorem V15_at (c : Dev nD) (j : Fin 32) (w : Fin 256) :
    (V m c main_v15 : S32x256.Idx → EReal) (ix2 j w) = Cert.Spec.mask w j := by
  exact (congrFun (V15_eq m c) _).trans (expandW_at j w)

end Cert.KernelIdeal.Windows

end
-- ==== Proof.KernelArray.lean ====
/-
  From blocks to the whole result array.

  Grid point t = 8 b + g handles batch b and rows 32 g .. 32 g + 31 (all channels and columns); inside it trip k
  handles rows 32 g + 8 k .. 32 g + 8 k + 7, that is patch row 4 g + k. So what point t writes back is the second
  arrangement of the specification read at (b, c, 32 g + r, w), the 64 blocks tile the array, and the array after the
  run is that function everywhere.
-/
import proofs.«130388_j39152921870505_2_alg».proof.Proof.KernelBlock
import proofs.«130388_j39152921870505_2_alg».proof.Proof.KernelPayload
import proofs.«130388_j39152921870505_2_alg».proof.Proof.KernelWindows
import proofs.«130388_j39152921870505_2_alg».proof.Proof.Spec

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.Result

open Cert.KernelIdeal Cert.KernelIdeal.Gen Cert.KernelIdeal.Block Cert.KernelIdeal.Payload Cert.KernelIdeal.Windows
open Cert.KernelIdeal.Value

theorem hz2 : (![0, 0] : Fin 2 → Nat) = fun _ => 0 := funext fun a => by fin_cases a <;> rfl

theorem trips_eq : k0_t1_loop.trips = 4 := by decide

/-! ### The output block at an index of trip k's rows, for any instance -/

section Generic
variable {F : FTy → Type} [FloatOps F]

theorem out_at (c : Dev nD) (i : grid0.Coords) (arg2 : Memref sig .tc .vmem S1x256x32x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x32 .f32) (harg5 : arg5.IsWhole) (arg6 : Memref sig .tc .vmem S32x256 .f32) (harg6 : arg6.IsWhole) (arg7 : Memref sig .tc .vmem S256x32 .f32) (harg7 : arg7.IsWhole) (arg8 : Memref sig .tc .vmem S32x256 .f32) (harg8 : arg8.IsWhole) (arg9 : Memref sig .tc .vmem S1x256x32x256 .f32) (harg9 : arg9.IsWhole)
    (x0 : Vec F S1x256x32x256 .f32) (x1 : Vec F S256x1 .f32) (x2 : Vec F S256x1 .f32) (x3 : Vec F S256x32 .f32) (x4 : Vec F S32x256 .f32) (x5 : Vec F S256x32 .f32) (x6 : Vec F S32x256 .f32) (k : Fin k0_t1_loop.trips) (x : (rect k).shape.Idx) :
    out0_A_7 c i arg2 harg2 arg3 harg3 arg4 harg4 arg5 harg5 arg6 harg6 arg7 harg7 arg8 harg8 arg9 harg9 x0 x1 x2 x3 x4 x5 x6 ((rect k).emb x) = tripVal x1 x2 x5 x6 x3 x4 (View.ld x0 (rect k)) x := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  unfold kernelRun0_A
  dsimp only
  refine (canon_pb (F := F) Variants.none c none i arg2 harg2 arg3 harg3 arg4 harg4 arg5 harg5 arg6 harg6 arg7 harg7 arg8 harg8
    arg9 harg9 _ _ _ _ _ _ (harg2.unread x0) k0_t1_loop.trips (Nat.le_refl _) k k.isLt x).trans ?_
  simp only [View.readAt_eq_ld, harg2.read_unread, harg3.read_unread, harg4.read_unread, harg5.read_unread, harg6.read_unread,
    harg7.read_unread, harg8.read_unread, View.ld_unit_zero (S := S256x1) hz2, View.ld_unit_zero (S := S256x32) hz2,
    View.ld_unit_zero (S := S32x256) hz2]

end Generic

/-! ### The output block from coordinate functions -/

/-- Row r of the 32-row block of grid row g. -/
abbrev rowOf (g : Fin 8) (r : Fin 32) : Fin 256 := ⟨32 * g.val + r.val, by omega⟩

theorem block_at (X : Fin 8 → Fin 256 → Fin 256 → Fin 256 → EReal) (γ β : Fin 256 → EReal)
    (W1 : Fin 32 → Fin 256 → EReal) (W2 : Fin 256 → Fin 32 → EReal) (b g : Fin 8)
    (c : Dev nD) (i : grid0.Coords) (arg2 : Memref sig .tc .vmem S1x256x32x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x32 .f32) (harg5 : arg5.IsWhole) (arg6 : Memref sig .tc .vmem S32x256 .f32) (harg6 : arg6.IsWhole) (arg7 : Memref sig .tc .vmem S256x32 .f32) (harg7 : arg7.IsWhole) (arg8 : Memref sig .tc .vmem S32x256 .f32) (harg8 : arg8.IsWhole) (arg9 : Memref sig .tc .vmem S1x256x32x256 .f32) (harg9 : arg9.IsWhole)
    (x0 : Vec Ideal S1x256x32x256 .f32) (x1 : Vec Ideal S256x1 .f32) (x2 : Vec Ideal S256x1 .f32) (x3 : Vec Ideal S256x32 .f32) (x4 : Vec Ideal S32x256 .f32) (x5 : Vec Ideal S256x32 .f32) (x6 : Vec Ideal S32x256 .f32)
    (hx0 : ∀ (k : Fin 256) (r : Fin 32) (w : Fin 256), x0 (ix4 (0 : Fin 1) k r w) = X b k (rowOf g r) w)
    (hx1 : ∀ k : Fin 256, x1 (ix2 k (0 : Fin 1)) = γ k) (hx2 : ∀ k : Fin 256, x2 (ix2 k (0 : Fin 1)) = β k)
    (hx3 : ∀ (k : Fin 256) (r : Fin 32), x3 (ix2 k r) = W1 r k) (hx4 : ∀ (r : Fin 32) (k : Fin 256), x4 (ix2 r k) = W2 k r)
    (hx5 : ∀ (w : Fin 256) (j : Fin 32), x5 (ix2 w j) = Ideal.div (Cert.Spec.mask w j) Cert.Spec.c8)
    (hx6 : ∀ (j : Fin 32) (w : Fin 256), x6 (ix2 j w) = Cert.Spec.mask w j)
    (u : Fin 1) (k : Fin 256) (r : Fin 32) (w : Fin 256) :
    out0_A_7 (F := Ideal) c i arg2 harg2 arg3 harg3 arg4 harg4 arg5 harg5 arg6 harg6 arg7 harg7 arg8 harg8 arg9 harg9 x0 x1 x2 x3 x4 x5 x6 (ix4 u k r w) = Cert.Spec.outK X γ β W1 W2 b k (rowOf g r) w := by
  have hr : r.val < 32 := r.isLt
  let kk : Fin k0_t1_loop.trips := ⟨r.val / 8, by rw [trips_eq]; omega⟩
  let p : Fin 8 := ⟨r.val % 8, by omega⟩
  have e : (ix4 u k r w : S1x256x32x256.Idx) = (rect kk).emb (ix4 u k p w) := by
    funext a; apply Fin.ext
    have ho := k0_off1_eq kk
    match a with
    | ⟨0, _⟩ => show u.val = k0_off1 kk 0 + 1 * u.val; rw [ho]; show u.val = 0 + 1 * u.val; omega
    | ⟨1, _⟩ => show k.val = k0_off1 kk 1 + 1 * k.val; rw [ho]; show k.val = 0 + 1 * k.val; omega
    | ⟨2, _⟩ => show r.val = k0_off1 kk 2 + 1 * (r.val % 8); rw [ho]; show r.val = 8 * (r.val / 8) + 1 * (r.val % 8); omega
    | ⟨3, _⟩ => show w.val = k0_off1 kk 3 + 1 * w.val; rw [ho]; show w.val = 0 + 1 * w.val; omega
  rw [e, out_at]
  have hg : g.val < 8 := g.isLt
  have h18 : ∀ (c' : Fin 256) (p' : Fin 8) (w' : Fin 256),
      View.ld x0 (rect kk) (ix4 (0 : Fin 1) c' p' w') = X b c' (Cert.Spec.cell ⟨4 * g.val + r.val / 8, by omega⟩ p') w' := by
    intro c' p' w'
    have hp' : p'.val < 8 := p'.isLt
    have e1 : (rect kk).idx (ix4 (0 : Fin 1) c' p' w') = ix4 (0 : Fin 1) c' (⟨8 * (r.val / 8) + p'.val, by omega⟩ : Fin 32) w' := by
      funext a; apply Fin.ext
      have ho := k0_off1_eq kk
      match a with
      | ⟨0, _⟩ => show k0_off1 kk 0 + 1 * 0 = 0; rw [ho]; rfl
      | ⟨1, _⟩ => show k0_off1 kk 1 + 1 * c'.val = c'.val; rw [ho]; show 0 + 1 * c'.val = c'.val; omega
      | ⟨2, _⟩ => show k0_off1 kk 2 + 1 * p'.val = 8 * (r.val / 8) + p'.val; rw [ho]; show 8 * (r.val / 8) + 1 * p'.val = _; omega
      | ⟨3, _⟩ => show k0_off1 kk 3 + 1 * w'.val = w'.val; rw [ho]; show 0 + 1 * w'.val = w'.val; omega
    show x0 ((rect kk).idx (ix4 (0 : Fin 1) c' p' w')) = _
    rw [e1, hx0]
    exact congrArg (fun h => X b c' h w') (Fin.ext (by show 32 * g.val + (8 * (r.val / 8) + p'.val) = 8 * (4 * g.val + r.val / 8) + p'.val; omega))
  refine (tripVal_at X γ β W1 W2 b ⟨4 * g.val + r.val / 8, by omega⟩ x1 x2 x5 x6 x3 x4 (View.ld x0 (rect kk)) h18 hx1 hx2 hx5 hx6 hx3
    hx4 u k p w).trans ?_
  exact congrArg (fun h => Cert.Spec.outK X γ β W1 W2 b k h w)
    (Fin.ext (by show 8 * (4 * g.val + r.val / 8) + r.val % 8 = 32 * g.val + r.val; omega))

/-! ### The windows' index maps over the grid -/

theorem idx_facts : ∀ t : Fin cfg0.N,
    win0_0.index t (0 : Fin 4) = t.val / 8 ∧ win0_0.index t (1 : Fin 4) = 0 ∧ win0_0.index t (2 : Fin 4) = t.val % 8
    ∧ win0_0.index t (3 : Fin 4) = 0
    ∧ win0_7.index t (0 : Fin 4) = t.val / 8 ∧ win0_7.index t (1 : Fin 4) = 0 ∧ win0_7.index t (2 : Fin 4) = t.val % 8
    ∧ win0_7.index t (3 : Fin 4) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0 :=
  (by decide +kernel : ∀ t : Fin grid0.N, _)

/-! ### The result array and what each point writes back -/

variable (m : (ℓ : Loc nD τ sig) → Buf (Elt Ideal) ℓ) (ρ : Dev nD → PrngReg)

/-- The result as a function of the five argument arrays: the second arrangement of the specification at the
    index's four coordinates. -/
def resultOf (a0 : S8x256x256x256.Idx → EReal) (a1 a2 : S256.Idx → EReal) (a3 : S32x256.Idx → EReal)
    (a4 : S256x32.Idx → EReal) : S8x256x256x256.Idx → EReal := fun i =>
  Cert.Spec.outK (fun b k h w => a0 (ix4 b k h w)) (fun k => a1 (ix1 k)) (fun k => a2 (ix1 k)) (fun r k => a3 (ix2 r k))
    (fun k r => a4 (ix2 k r)) (i 0) (i 1) (i 2) (i 3)

/-- The result array on core c. -/
abbrev result (c : Dev nD) : S8x256x256x256.Idx → EReal :=
  resultOf (m ((c : Thread nD τ).loc main_arg0)) (m ((c : Thread nD τ).loc main_arg1)) (m ((c : Thread nD τ).loc main_arg2))
    (m ((c : Thread nD τ).loc main_arg3)) (m ((c : Thread nD τ).loc main_arg4))

theorem t_lt (t : Fin cfg0.N) : t.val < 64 := by
  have hN : cfg0.N = 64 := N_0
  have := t.isLt
  omega

/-- The batch and the grid row of point t. -/
abbrev bOf (t : Fin cfg0.N) : Fin 8 := ⟨t.val / 8, by have := t_lt t; omega⟩
abbrev gOf (t : Fin cfg0.N) : Fin 8 := ⟨t.val % 8, by omega⟩

/-- The input block of point t: batch t / 8, rows 32 (t % 8) .. of the input. -/
theorem iblk0_at (c : Dev nD) (t : Fin cfg0.N) (k : Fin 256) (r : Fin 32) (w : Fin 256) :
    (iblk m c 0 t : S1x256x32x256.Idx → EReal) (ix4 (0 : Fin 1) k r w)
      = (m ((c : Thread nD τ).loc main_arg0) : S8x256x256x256.Idx → EReal) (ix4 (bOf t) k (rowOf (gOf t) r) w) := by
  obtain ⟨f0, f1, f2, f3, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 4) * 1 + 1 * 0 = t.val / 8; rw [f0]; omega
  | ⟨1, _⟩ => show win0_0.index t (1 : Fin 4) * 256 + 1 * k.val = k.val; rw [f1]; omega
  | ⟨2, _⟩ => show win0_0.index t (2 : Fin 4) * 32 + 1 * r.val = 32 * (t.val % 8) + r.val; rw [f2]; omega
  | ⟨3, _⟩ => show win0_0.index t (3 : Fin 4) * 256 + 1 * w.val = w.val; rw [f3]; omega

theorem iblk1_at (c : Dev nD) (t : Fin cfg0.N) (k : Fin 256) :
    (iblk m c 1 t : S256x1.Idx → EReal) (ix2 k (0 : Fin 1)) = (m ((c : Thread nD τ).loc main_arg1) : S256.Idx → EReal) (ix1 k) := by
  obtain ⟨-, -, -, -, -, -, -, -, f0, f1, -⟩ := idx_facts t
  unfold iblk
  rw [View.read_apply]
  show V m c main_v0 _ = _
  refine (congrArg (V m c main_v0) (funext fun a => Fin.ext ?_)).trans (V0_at m c k)
  match a with
  | ⟨0, _⟩ => show win0_1.index t (0 : Fin 2) * 256 + 1 * k.val = k.val; rw [f0]; omega
  | ⟨1, _⟩ => show win0_1.index t (1 : Fin 2) * 1 + 1 * 0 = 0; rw [f1]

theorem iblk2_at (c : Dev nD) (t : Fin cfg0.N) (k : Fin 256) :
    (iblk m c 2 t : S256x1.Idx → EReal) (ix2 k (0 : Fin 1)) = (m ((c : Thread nD τ).loc main_arg2) : S256.Idx → EReal) (ix1 k) := by
  obtain ⟨-, -, -, -, -, -, -, -, -, -, f0, f1, -⟩ := idx_facts t
  unfold iblk
  rw [View.read_apply]
  show V m c main_v1 _ = _
  refine (congrArg (V m c main_v1) (funext fun a => Fin.ext ?_)).trans (V1_at m c k)
  match a with
  | ⟨0, _⟩ => show win0_2.index t (0 : Fin 2) * 256 + 1 * k.val = k.val; rw [f0]; omega
  | ⟨1, _⟩ => show win0_2.index t (1 : Fin 2) * 1 + 1 * 0 = 0; rw [f1]

theorem iblk3_at (c : Dev nD) (t : Fin cfg0.N) (k : Fin 256) (r : Fin 32) :
    (iblk m c 3 t : S256x32.Idx → EReal) (ix2 k r) = (m ((c : Thread nD τ).loc main_arg3) : S32x256.Idx → EReal) (ix2 r k) := by
  obtain ⟨-, -, -, -, -, -, -, -, -, -, -, -, f0, f1, -⟩ := idx_facts t
  unfold iblk
  rw [View.read_apply]
  show V m c main_v2 _ = _
  refine (congrArg (V m c main_v2) (funext fun a => Fin.ext ?_)).trans (V2_at m c k r)
  match a with
  | ⟨0, _⟩ => show win0_3.index t (0 : Fin 2) * 256 + 1 * k.val = k.val; rw [f0]; omega
  | ⟨1, _⟩ => show win0_3.index t (1 : Fin 2) * 32 + 1 * r.val = r.val; rw [f1]; omega

theorem iblk4_at (c : Dev nD) (t : Fin cfg0.N) (r : Fin 32) (k : Fin 256) :
    (iblk m c 4 t : S32x256.Idx → EReal) (ix2 r k) = (m ((c : Thread nD τ).loc main_arg4) : S256x32.Idx → EReal) (ix2 k r) := by
  obtain ⟨-, -, -, -, -, -, -, -, -, -, -, -, -, -, f0, f1, -⟩ := idx_facts t
  unfold iblk
  rw [View.read_apply]
  show V m c main_v3 _ = _
  refine (congrArg (V m c main_v3) (funext fun a => Fin.ext ?_)).trans (V3_at m c r k)
  match a with
  | ⟨0, _⟩ => show win0_4.index t (0 : Fin 2) * 32 + 1 * r.val = r.val; rw [f0]; omega
  | ⟨1, _⟩ => show win0_4.index t (1 : Fin 2) * 256 + 1 * k.val = k.val; rw [f1]; omega

theorem iblk5_at (c : Dev nD) (t : Fin cfg0.N) (w : Fin 256) (j : Fin 32) :
    (iblk m c 5 t : S256x32.Idx → EReal) (ix2 w j) = Ideal.div (Cert.Spec.mask w j) Cert.Spec.c8 := by
  obtain ⟨-, -, -, -, -, -, -, -, -, -, -, -, -, -, -, -, f0, f1, -⟩ := idx_facts t
  unfold iblk
  rw [View.read_apply]
  show V m c main_v14 _ = _
  refine (congrArg (V m c main_v14) (funext fun a => Fin.ext ?_)).trans (V14_at m c w j)
  match a with
  | ⟨0, _⟩ => show win0_5.index t (0 : Fin 2) * 256 + 1 * w.val = w.val; rw [f0]; omega
  | ⟨1, _⟩ => show win0_5.index t (1 : Fin 2) * 32 + 1 * j.val = j.val; rw [f1]; omega

theorem iblk6_at (c : Dev nD) (t : Fin cfg0.N) (j : Fin 32) (w : Fin 256) :
    (iblk m c 6 t : S32x256.Idx → EReal) (ix2 j w) = Cert.Spec.mask w j := by
  obtain ⟨-, -, -, -, -, -, -, -, -, -, -, -, -, -, -, -, -, -, f0, f1⟩ := idx_facts t
  unfold iblk
  rw [View.read_apply]
  show V m c main_v15 _ = _
  refine (congrArg (V m c main_v15) (funext fun a => Fin.ext ?_)).trans (V15_at m c j w)
  match a with
  | ⟨0, _⟩ => show win0_6.index t (0 : Fin 2) * 32 + 1 * j.val = j.val; rw [f0]; omega
  | ⟨1, _⟩ => show win0_6.index t (1 : Fin 2) * 256 + 1 * w.val = w.val; rw [f1]; omega

/-- What point t writes back is the block of the result at batch t / 8 and rows 32 (t % 8) .. . -/
theorem flushed_eq (c : Dev nD) (t : Fin cfg0.N) :
    (dats m 0 c).flushed 7 t = ((cfg0.win 7).blk t).view.read (Elt Ideal) (result m c) := by
  rw [flushed7_A]
  obtain ⟨-, -, -, -, f0, f1, f2, f3, -⟩ := idx_facts t
  funext j
  obtain ⟨u, k, r, w, rfl⟩ : ∃ (u : Fin 1) (k : Fin 256) (r : Fin 32) (w : Fin 256), j = ix4 u k r w :=
    ⟨j 0, j 1, j 2, j 3, eq_ix4 j⟩
  show out0_A_7 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (iblk m c 0 t) (iblk m c 1 t) (iblk m c 2 t)
      (iblk m c 3 t) (iblk m c 4 t) (iblk m c 5 t) (iblk m c 6 t) (ix4 u k r w)
    = result m c (((cfg0.win 7).blk t).view.emb (ix4 u k r w))
  have he : ((cfg0.win 7).blk t).view.emb (ix4 u k r w) = ix4 (bOf t) k (rowOf (gOf t) r) w := by
    funext a; apply Fin.ext
    have hu : u.val = 0 := by omega
    match a with
    | ⟨0, _⟩ => show win0_7.index t (0 : Fin 4) * 1 + 1 * u.val = t.val / 8; rw [f0, hu]; omega
    | ⟨1, _⟩ => show win0_7.index t (1 : Fin 4) * 256 + 1 * k.val = k.val; rw [f1]; omega
    | ⟨2, _⟩ => show win0_7.index t (2 : Fin 4) * 32 + 1 * r.val = 32 * (t.val % 8) + r.val; rw [f2]; omega
    | ⟨3, _⟩ => show win0_7.index t (3 : Fin 4) * 256 + 1 * w.val = w.val; rw [f3]; omega
  rw [he]
  exact block_at (fun b k h w => (m ((c : Thread nD τ).loc main_arg0) : S8x256x256x256.Idx → EReal) (ix4 b k h w))
    (fun k => (m ((c : Thread nD τ).loc main_arg1) : S256.Idx → EReal) (ix1 k))
    (fun k => (m ((c : Thread nD τ).loc main_arg2) : S256.Idx → EReal) (ix1 k))
    (fun r k => (m ((c : Thread nD τ).loc main_arg3) : S32x256.Idx → EReal) (ix2 r k))
    (fun k r => (m ((c : Thread nD τ).loc main_arg4) : S256x32.Idx → EReal) (ix2 k r)) (bOf t) (gOf t)
    c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (iblk m c 0 t) (iblk m c 1 t) (iblk m c 2 t)
    (iblk m c 3 t) (iblk m c 4 t) (iblk m c 5 t) (iblk m c 6 t)
    (iblk0_at m c t) (iblk1_at m c t) (iblk2_at m c t) (iblk3_at m c t) (iblk4_at m c t) (iblk5_at m c t) (iblk6_at m c t) u k r w

/-- Every index of the array lies in the block of the point of its batch and grid row. -/
theorem cover (i : S8x256x256x256.Idx) : ∃ t : Fin cfg0.N, (cfg0.win 7).flush t = true ∧ i ∈ ((cfg0.win 7).blk t).view.set := by
  have hN : cfg0.N = 64 := N_0
  have h0 : (i 0).val < 8 := (i 0).isLt
  have h1 : (i 1).val < 256 := (i 1).isLt
  have h2 : (i 2).val < 256 := (i 2).isLt
  have h3 : (i 3).val < 256 := (i 3).isLt
  let t : Fin cfg0.N := ⟨(i 0).val * 8 + (i 2).val / 32, by omega⟩
  obtain ⟨-, -, -, -, f0, f1, f2, f3, -⟩ := idx_facts t
  have e0 : win0_7.index t (0 : Fin 4) = (i 0).val := by rw [f0]; show ((i 0).val * 8 + (i 2).val / 32) / 8 = _; omega
  have e2 : win0_7.index t (2 : Fin 4) = (i 2).val / 32 := by rw [f2]; show ((i 0).val * 8 + (i 2).val / 32) % 8 = _; omega
  refine ⟨t, flush0_7 t, ?_⟩
  show i ∈ ((View.whole main_v16).slice (win0_7.rect t)).set
  rw [View.set_slice_whole, Rect.mem_set_unit]
  intro a
  match a with
  | ⟨0, _⟩ => show win0_7.index t (0 : Fin 4) * 1 ≤ (i 0).val ∧ (i 0).val < win0_7.index t (0 : Fin 4) * 1 + 1; rw [e0]; omega
  | ⟨1, _⟩ => show win0_7.index t (1 : Fin 4) * 256 ≤ (i 1).val ∧ (i 1).val < win0_7.index t (1 : Fin 4) * 256 + 256; rw [f1]; omega
  | ⟨2, _⟩ => show win0_7.index t (2 : Fin 4) * 32 ≤ (i 2).val ∧ (i 2).val < win0_7.index t (2 : Fin 4) * 32 + 32; rw [e2]; omega
  | ⟨3, _⟩ => show win0_7.index t (3 : Fin 4) * 256 ≤ (i 3).val ∧ (i 3).val < win0_7.index t (3 : Fin 4) * 256 + 256; rw [f3]; omega

/-- The result array after the run. -/
theorem final (c : Dev nD) : (dats m 0 c).arrAt 7 cfg0.N = result m c :=
  (dats m 0 c).arrAt_eq_of_cover 7 (result m c) (fun t _ => flushed_eq m c t) cover

/-- The run, read: the result array is the specification's second arrangement of the arguments, which are unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Result

end
-- ==== Proof.RefSpec.lean ====
/-
  The reference program read element by element: its result at (batch, channel, row, column) is the first
  arrangement of the specification (`Cert.Spec.out`) at the input's coordinate functions.

  The program moves the channel axis last, normalises over channels, splits rows and columns as (patch, offset),
  takes the mean over the two offsets, applies the two gating layers to the patch means, multiplies, and undoes the
  split and the move. Each stage is read at an index built from its coordinates; the split and its inverse are the
  row-major identity 256 * (8 i + p) = 8 * 256 i + 256 p, and the two-offset sum is a double sum over the offsets.
-/
import proofs.«130388_j39152921870505_2_alg».proof.Proof.Gen.ReferenceIdeal.Read
import proofs.«130388_j39152921870505_2_alg».proof.Proof.Spec
import Idealize.ShloMosaic.Lib.ValueIdx
import Idealize.ShloMosaic.Lib.ValueIdxRank6
import Idealize.ShloMosaic.Lib.IdealHost
import Idealize.ShloMosaic.Lib.Pipeline.Value
import Idealize.ShloMosaic.PureOps.Ideal.Laws

noncomputable section

namespace Cert.RefSide

open Idealize.ShloMosaic Idealize.ShloMosaic.ValueIdx Cert.ReferenceIdeal Cert.ReferenceIdeal.Gen Cert.ReferenceIdeal.Read

local macro "idx3" : tactic =>
  `(tactic| (funext a; match a with | ⟨0, _⟩ => rfl | ⟨1, _⟩ => rfl | ⟨2, _⟩ => rfl))
local macro "idx4" : tactic =>
  `(tactic| (funext a; match a with | ⟨0, _⟩ => rfl | ⟨1, _⟩ => rfl | ⟨2, _⟩ => rfl | ⟨3, _⟩ => rfl))

variable (x0 : (⟨S8x256x256x256, .f32⟩ : BufTy).Contents (Elt Ideal)) (x1 x2 : (⟨S256, .f32⟩ : BufTy).Contents (Elt Ideal))
  (x3 : (⟨S32x256, .f32⟩ : BufTy).Contents (Elt Ideal)) (x4 : (⟨S256x32, .f32⟩ : BufTy).Contents (Elt Ideal))

/-- The input by (batch, channel, row, column). -/
abbrev X : Fin 8 → Fin 256 → Fin 256 → Fin 256 → EReal := fun b c h w => x0 (ix4 b c h w)
/-- The scale and the shift by channel. -/
abbrev G : Fin 256 → EReal := fun c => x1 (ix1 c)
abbrev B : Fin 256 → EReal := fun c => x2 (ix1 c)
/-- The two weight matrices by (row, column). -/
abbrev W1 : Fin 32 → Fin 256 → EReal := fun r c => x3 (ix2 r c)
abbrev W2 : Fin 256 → Fin 32 → EReal := fun c r => x4 (ix2 c r)

/-! ### The normalisation, channel last -/

theorem v0_at (b : Fin 8) (h w c : Fin 256) :
    val_main_v0 (F := Ideal) x0 (ix4 b h w c) = X x0 b c h w := by
  rw [val_main_v0_apply]
  exact congrArg x0 (by idx4)

theorem v1_at (b : Fin 8) (h w : Fin 256) :
    val_main_v1 (F := Ideal) x0 (ix3 b h w) = ∑ c : Fin 256, X x0 b c h w := by
  rw [val_main_v1_apply, val_main_cst_apply, Ideal.ofBits_def, Ideal.ofBits_zero_f32, zero_add]
  refine Finset.sum_congr rfl fun c _ => ?_
  rw [show idx_main_v1 (ix3 b h w) c = ix4 b h w c by idx4]
  exact v0_at x0 b h w c

theorem v4_at (b : Fin 8) (h w : Fin 256) (z : Fin 1) :
    val_main_v4 (F := Ideal) x0 (ix4 b h w z) = Cert.Spec.mu (X x0) b h w := by
  rw [val_main_v4_apply, val_main_v2_apply, val_main_v3_apply, val_main_cst_0_apply, Ideal.hostDivf_def,
    show idx_main_v2 (ix4 b h w z) = ix3 b h w by idx3, v1_at]
  rfl

theorem v6_at (b : Fin 8) (h w c : Fin 256) :
    val_main_v6 (F := Ideal) x0 (ix4 b h w c) = X x0 b c h w - Cert.Spec.mu (X x0) b h w := by
  rw [val_main_v6_apply, val_main_v5_apply, Ideal.subf_def, v0_at,
    show idx_main_v5 (ix4 b h w c) = ix4 b h w (⟨0, Nat.one_pos⟩ : Fin 1) by idx4, v4_at]

theorem v8_at (b : Fin 8) (h w : Fin 256) :
    val_main_v8 (F := Ideal) x0 (ix3 b h w)
      = ∑ c : Fin 256, (X x0 b c h w - Cert.Spec.mu (X x0) b h w) * (X x0 b c h w - Cert.Spec.mu (X x0) b h w) := by
  rw [val_main_v8_apply, val_main_cst_1_apply, Ideal.ofBits_def, Ideal.ofBits_zero_f32, zero_add]
  refine Finset.sum_congr rfl fun c _ => ?_
  rw [show idx_main_v8 (ix3 b h w) c = ix4 b h w c by idx4, val_main_v7_apply, Ideal.mulf_def, v6_at]

theorem v11_at (b : Fin 8) (h w : Fin 256) (z : Fin 1) :
    val_main_v11 (F := Ideal) x0 (ix4 b h w z) = Cert.Spec.var (X x0) b h w := by
  rw [val_main_v11_apply, val_main_v9_apply, val_main_v10_apply, val_main_cst_2_apply, Ideal.hostDivf_def,
    show idx_main_v9 (ix4 b h w z) = ix3 b h w by idx3, v8_at]
  rfl

theorem v16_at (b : Fin 8) (h w : Fin 256) (z : Fin 1) :
    val_main_v16 (F := Ideal) x0 (ix4 b h w z) = Ideal.rsqrt (Cert.Spec.var (X x0) b h w + Cert.Spec.eps) := by
  rw [val_main_v16_apply, val_main_v15_apply, val_main_v14_apply, val_main_cst_3_apply, Ideal.hostUnary_rsqrt_def,
    Ideal.addf_def, v11_at]
  rfl

theorem v18_at (b : Fin 8) (h w c : Fin 256) :
    val_main_v18 (F := Ideal) x0 (ix4 b h w c) = Cert.Spec.tn (X x0) b c h w := by
  rw [val_main_v18_apply, val_main_v13_apply, val_main_v12_apply, val_main_v17_apply, Ideal.mulf_def, Ideal.subf_def,
    v0_at, show idx_main_v12 (ix4 b h w c) = ix4 b h w (⟨0, Nat.one_pos⟩ : Fin 1) by idx4, v4_at,
    show idx_main_v17 (ix4 b h w c) = ix4 b h w (⟨0, Nat.one_pos⟩ : Fin 1) by idx4, v16_at]
  rfl

theorem v20_at (b : Fin 8) (h w c : Fin 256) :
    val_main_v20 (F := Ideal) x1 (ix4 b h w c) = G x1 c := by
  rw [val_main_v20_apply, val_main_v19_apply]
  exact congrArg x1 (by funext a; match a with | ⟨0, _⟩ => rfl)

theorem v23_at (b : Fin 8) (h w c : Fin 256) :
    val_main_v23 (F := Ideal) x2 (ix4 b h w c) = B x2 c := by
  rw [val_main_v23_apply, val_main_v22_apply]
  exact congrArg x2 (by funext a; match a with | ⟨0, _⟩ => rfl)

/-- The normalised, scaled and shifted input, channel last. -/
theorem v24_at (b : Fin 8) (h w c : Fin 256) :
    val_main_v24 (F := Ideal) x0 x1 x2 (ix4 b h w c) = Cert.Spec.xn (X x0) (G x1) (B x2) b c h w := by
  rw [val_main_v24_apply, val_main_v21_apply, Ideal.addf_def, Ideal.mulf_def, v18_at, v20_at, v23_at]
  rfl

/-! ### The patch means: a reshape and a sum over the two in-patch axes -/

/-- Rows and columns split as (patch, offset): the index of `[8, 256, 256, 256]` with the same row-major position. -/
theorem v25_at (b : Fin 8) (i : Fin 32) (p : Fin 8) (j : Fin 32) (q : Fin 8) (c : Fin 256) :
    val_main_v25 (F := Ideal) x0 x1 x2 (ix6 b i p j q c)
      = Cert.Spec.xn (X x0) (G x1) (B x2) b c (Cert.Spec.cell i p) (Cert.Spec.cell j q) := by
  unfold val_main_v25
  refine (shapeCast_apply _ _ (ix6 b i p j q c) (ix4 b (Cert.Spec.cell i p) (Cert.Spec.cell j q) c) ?_).trans
    (v24_at x0 x1 x2 b (Cert.Spec.cell i p) (Cert.Spec.cell j q) c)
  rw [Shape.rowMajor_val_four, Shape.rowMajor_val_six]
  have hb := b.isLt; have hi := i.isLt; have hp := p.isLt; have hj := j.isLt; have hq := q.isLt; have hc := c.isLt
  show ((b.val * 256 + (8 * i.val + p.val)) * 256 + (8 * j.val + q.val)) * 256 + c.val
    = ((((b.val * 32 + i.val) * 8 + p.val) * 32 + j.val) * 8 + q.val) * 256 + c.val
  omega

/-- A sum over the third and fifth of six axes, read at an index of the four kept axes: the initial value plus the
    double sum over the two dropped coordinates. -/
theorem hostReduceAdd_d2_4 (y : S8x32x8x32x8x256.Idx → EReal) (init : EReal) (b : Fin 8) (i j : Fin 32) (c : Fin 256) :
    Ideal.hostReduceAdd reducesTo_S8x32x8x32x8x256_S8x32x32x256_d2_4 y init (ix4 b i j c)
      = init + ∑ p : Fin 8, ∑ q : Fin 8, y (ix6 b i p j q c) := by
  unfold Ideal.hostReduceAdd
  refine congrArg (init + ·) ?_
  rw [← Finset.sum_product' Finset.univ Finset.univ (fun p q : Fin 8 => y (ix6 b i p j q c))]
  have hd0 : ∀ a : S8x32x8x32x8x256.Idx, (reducesTo_S8x32x8x32x8x256_S8x32x32x256_d2_4.drop a 0 : Nat) = a 0 :=
    fun a => Shape.ReducesTo.drop_apply_val_of_eq _ a 0 0
  have hd1 : ∀ a : S8x32x8x32x8x256.Idx, (reducesTo_S8x32x8x32x8x256_S8x32x32x256_d2_4.drop a 1 : Nat) = a 1 :=
    fun a => Shape.ReducesTo.drop_apply_val_of_eq _ a 1 1
  have hd2 : ∀ a : S8x32x8x32x8x256.Idx, (reducesTo_S8x32x8x32x8x256_S8x32x32x256_d2_4.drop a 2 : Nat) = a 3 :=
    fun a => Shape.ReducesTo.drop_apply_val_of_eq _ a 2 3
  have hd3 : ∀ a : S8x32x8x32x8x256.Idx, (reducesTo_S8x32x8x32x8x256_S8x32x32x256_d2_4.drop a 3 : Nat) = a 5 :=
    fun a => Shape.ReducesTo.drop_apply_val_of_eq _ a 3 5
  refine Finset.sum_nbij' (fun a => ((a 2 : Fin 8), (a 4 : Fin 8))) (fun pq => ix6 b i pq.1 j pq.2 c)
    (fun a _ => Finset.mem_product.2 ⟨Finset.mem_univ _, Finset.mem_univ _⟩) (fun pq _ => ?_) (fun a ha => ?_)
    (fun pq _ => rfl) (fun a ha => ?_)
  · refine Finset.mem_filter.2 ⟨Finset.mem_univ _, ?_⟩
    funext g
    match g with
    | ⟨0, _⟩ => exact Fin.ext (hd0 _)
    | ⟨1, _⟩ => exact Fin.ext (hd1 _)
    | ⟨2, _⟩ => exact Fin.ext (hd2 _)
    | ⟨3, _⟩ => exact Fin.ext (hd3 _)
  · have hm := (Finset.mem_filter.1 ha).2
    have h0 : (a 0 : Nat) = b := (hd0 a).symm.trans (congrArg (fun f : S8x32x32x256.Idx => (f 0 : Nat)) hm)
    have h1 : (a 1 : Nat) = i := (hd1 a).symm.trans (congrArg (fun f : S8x32x32x256.Idx => (f 1 : Nat)) hm)
    have h3 : (a 3 : Nat) = j := (hd2 a).symm.trans (congrArg (fun f : S8x32x32x256.Idx => (f 2 : Nat)) hm)
    have h5 : (a 5 : Nat) = c := (hd3 a).symm.trans (congrArg (fun f : S8x32x32x256.Idx => (f 3 : Nat)) hm)
    funext g
    match g with
    | ⟨0, _⟩ => exact Fin.ext h0.symm
    | ⟨1, _⟩ => exact Fin.ext h1.symm
    | ⟨2, _⟩ => rfl
    | ⟨3, _⟩ => exact Fin.ext h3.symm
    | ⟨4, _⟩ => rfl
    | ⟨5, _⟩ => exact Fin.ext h5.symm
  · have hm := (Finset.mem_filter.1 ha).2
    have h0 : (a 0 : Nat) = b := (hd0 a).symm.trans (congrArg (fun f : S8x32x32x256.Idx => (f 0 : Nat)) hm)
    have h1 : (a 1 : Nat) = i := (hd1 a).symm.trans (congrArg (fun f : S8x32x32x256.Idx => (f 1 : Nat)) hm)
    have h3 : (a 3 : Nat) = j := (hd2 a).symm.trans (congrArg (fun f : S8x32x32x256.Idx => (f 2 : Nat)) hm)
    have h5 : (a 5 : Nat) = c := (hd3 a).symm.trans (congrArg (fun f : S8x32x32x256.Idx => (f 3 : Nat)) hm)
    refine congrArg y ?_
    funext g
    match g with
    | ⟨0, _⟩ => exact Fin.ext h0
    | ⟨1, _⟩ => exact Fin.ext h1
    | ⟨2, _⟩ => rfl
    | ⟨3, _⟩ => exact Fin.ext h3
    | ⟨4, _⟩ => rfl
    | ⟨5, _⟩ => exact Fin.ext h5

theorem v28_at (b : Fin 8) (i j : Fin 32) (c : Fin 256) :
    val_main_v28 (F := Ideal) x0 x1 x2 (ix4 b i j c) = Cert.Spec.pm (X x0) (G x1) (B x2) b i j c := by
  rw [val_main_v28_apply, val_main_v27_apply, val_main_cst_5_apply, Ideal.hostDivf_def]
  unfold val_main_v26
  rw [hostReduceAdd_apply, hostReduceAdd_d2_4, val_main_cst_4_apply, Ideal.ofBits_def, Ideal.ofBits_zero_f32, zero_add]
  unfold Cert.Spec.pm
  refine congrArg₂ Ideal.div (Finset.sum_congr rfl fun p _ => Finset.sum_congr rfl fun q _ => ?_) rfl
  exact v25_at x0 x1 x2 b i p j q c

/-! ### The two gating layers -/

theorem v29_at (b : Fin 8) (i j r : Fin 32) :
    val_main_v29 (F := Ideal) x0 x1 x2 x3 (ix4 b i j r)
      = ∑ c : Fin 256, Cert.Spec.pm (X x0) (G x1) (B x2) b i j c * W1 x3 r c := by
  rw [val_main_v29_apply]
  refine Finset.sum_congr rfl fun k _ => ?_
  rw [show lidx_main_v29 (ix4 b i j r) k = ix4 b i j k by idx4, v28_at]
  exact congrArg (_ * x3 ·) (by funext a; match a with | ⟨0, _⟩ => rfl | ⟨1, _⟩ => rfl)

theorem v30_at (b : Fin 8) (i j r : Fin 32) :
    val_main_v30 (F := Ideal) x0 x1 x2 x3 (ix4 b i j r)
      = Cert.Spec.hidOf (W1 x3) (Cert.Spec.pm (X x0) (G x1) (B x2) b i j) r := by
  rw [val_main_v30_apply, val_main_call0_v5_apply, val_main_call0_v4_apply, val_main_call0_cst_0_apply,
    val_main_call0_v3_apply, val_main_call0_v2_apply, val_main_call0_cst_apply, val_main_call0_v1_apply,
    val_main_call0_v0_apply, Ideal.mulf_def, Ideal.hostDivf_def, Ideal.addf_def, Ideal.hostUnary_exp_def,
    Ideal.hostNegf_def, Ideal.negf_def, Ideal.ofBits_def, Ideal.ofBits_one_f32, v29_at]
  rfl

theorem v31_at (b : Fin 8) (i j : Fin 32) (c : Fin 256) :
    val_main_v31 (F := Ideal) x0 x1 x2 x3 x4 (ix4 b i j c)
      = ∑ r : Fin 32, Cert.Spec.hidOf (W1 x3) (Cert.Spec.pm (X x0) (G x1) (B x2) b i j) r * W2 x4 c r := by
  rw [val_main_v31_apply]
  refine Finset.sum_congr rfl fun k _ => ?_
  rw [show lidx_main_v31 (ix4 b i j c) k = ix4 b i j k by idx4, v30_at]
  exact congrArg (_ * x4 ·) (by funext a; match a with | ⟨0, _⟩ => rfl | ⟨1, _⟩ => rfl)

theorem v37_at (b : Fin 8) (i j : Fin 32) (c : Fin 256) :
    val_main_v37 (F := Ideal) x0 x1 x2 x3 x4 (ix4 b i j c)
      = Cert.Spec.gateOf (W1 x3) (W2 x4) (Cert.Spec.pm (X x0) (G x1) (B x2) b i j) c := by
  rw [val_main_v37_apply, val_main_v36_apply, val_main_cst_7_apply, val_main_v35_apply, val_main_v34_apply,
    val_main_cst_6_apply, val_main_v33_apply, val_main_v32_apply, Ideal.hostDivf_def, Ideal.addf_def,
    Ideal.hostUnary_exp_def, Ideal.hostNegf_def, Ideal.negf_def, Ideal.ofBits_def, Ideal.ofBits_one_f32, v31_at]
  rfl

/-! ### The gate applied patch by patch, and the way back to (batch, channel, row, column) -/

theorem v40_at (b : Fin 8) (i : Fin 32) (p : Fin 8) (j : Fin 32) (q : Fin 8) (c : Fin 256) :
    val_main_v40 (F := Ideal) x0 x1 x2 x3 x4 (ix6 b i p j q c)
      = Cert.Spec.xn (X x0) (G x1) (B x2) b c (Cert.Spec.cell i p) (Cert.Spec.cell j q)
          * Cert.Spec.gateOf (W1 x3) (W2 x4) (Cert.Spec.pm (X x0) (G x1) (B x2) b i j) c := by
  rw [val_main_v40_apply, val_main_v39_apply, val_main_v38_apply, Ideal.mulf_def, v25_at,
    show idx_main_v38 (idx_main_v39 (ix6 b i p j q c)) = ix4 b i j c by idx4, v37_at]

/-- The offset of a row (or column) inside its patch. -/
abbrev off (h : Fin 256) : Fin 8 := ⟨h.val % 8, Nat.mod_lt _ (by decide)⟩

theorem cell_patch_off (h : Fin 256) : Cert.Spec.cell (Cert.Spec.patch h) (off h) = h :=
  Fin.ext (by show 8 * (h.val / 8) + h.val % 8 = h.val; omega)

theorem v41_at (b : Fin 8) (h w c : Fin 256) :
    val_main_v41 (F := Ideal) x0 x1 x2 x3 x4 (ix4 b h w c)
      = Cert.Spec.xn (X x0) (G x1) (B x2) b c h w
          * Cert.Spec.gateOf (W1 x3) (W2 x4)
              (Cert.Spec.pm (X x0) (G x1) (B x2) b (Cert.Spec.patch h) (Cert.Spec.patch w)) c := by
  unfold val_main_v41
  refine (shapeCast_apply _ _ (ix4 b h w c)
    (ix6 b (Cert.Spec.patch h) (off h) (Cert.Spec.patch w) (off w) c) ?_).trans ?_
  · rw [Shape.rowMajor_val_four, Shape.rowMajor_val_six]
    have hb := b.isLt; have hh := h.isLt; have hw := w.isLt; have hc := c.isLt
    show ((((b.val * 32 + h.val / 8) * 8 + h.val % 8) * 32 + w.val / 8) * 8 + w.val % 8) * 256 + c.val
      = ((b.val * 256 + h.val) * 256 + w.val) * 256 + c.val
    omega
  · rw [v40_at, cell_patch_off, cell_patch_off]

theorem v42_at (b : Fin 8) (c h w : Fin 256) :
    val_main_v42 (F := Ideal) x0 x1 x2 x3 x4 (ix4 b c h w)
      = Cert.Spec.out (X x0) (G x1) (B x2) (W1 x3) (W2 x4) b c h w := by
  rw [val_main_v42_apply, show idx_main_v42 (ix4 b c h w) = ix4 b h w c by idx4, v41_at]
  rfl

/-- The reference program's result, element by element, is the first arrangement of the specification. -/
theorem ref_eq (x0 : (⟨S8x256x256x256, .f32⟩ : BufTy).Contents (Elt Ideal)) (x1 x2 : (⟨S256, .f32⟩ : BufTy).Contents (Elt Ideal))
    (x3 : (⟨S32x256, .f32⟩ : BufTy).Contents (Elt Ideal)) (x4 : (⟨S256x32, .f32⟩ : BufTy).Contents (Elt Ideal))
    (b : Fin 8) (c h w : Fin 256) :
    Read.val_main_v42 (F := Ideal) x0 x1 x2 x3 x4 (ix4 b c h w)
      = Cert.Spec.out (fun b c h w => x0 (ix4 b c h w)) (fun c => x1 (ix1 c)) (fun c => x2 (ix1 c))
          (fun r c => x3 (ix2 r c)) (fun c r => x4 (ix2 c r)) b c h w :=
  v42_at x0 x1 x2 x3 x4 b c h w

end Cert.RefSide

end
-- ==== Proof.RealLaws.lean ====
/-
  The two arrangements of the layer-norm patch gate agree on real inputs: the two forms of a
  variance, a mean of means against one mean, a read through a 0-or-1 matrix, and the
  distribution of the gate over the affine map.
-/
import proofs.«130388_j39152921870505_2_alg».proof.Proof.Spec

noncomputable section

open Idealize.ShloMosaic

namespace Cert.Laws

open Cert.Spec

/-! ### The literals -/

theorem c256_eq : c256 = ((256 : ℝ) : EReal) := by
  unfold c256; simp [Ideal.ofBits, Ideal.ieee, -EReal.coe_mul]; norm_num

theorem c8_eq : c8 = ((8 : ℝ) : EReal) := by
  unfold c8; simp [Ideal.ofBits, Ideal.ieee, -EReal.coe_mul]; norm_num

theorem c64_eq : c64 = ((64 : ℝ) : EReal) := by
  unfold c64; simp [Ideal.ofBits, Ideal.ieee, -EReal.coe_mul]; norm_num

theorem eps_eq : ∃ e : ℝ, 0 < e ∧ eps = (e : EReal) := by
  refine ⟨(((2 ^ 23 + 2606508 : Nat) : ℝ) * (2 : ℝ) ^ ((110 : Int) - (2 ^ (8 - 1) - 1) - (23 : Nat))), by positivity, ?_⟩
  unfold eps; simp [Ideal.ofBits, Ideal.ieee, -EReal.coe_mul]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Real arithmetic -/

/-- The two forms of a variance: the mean of the squared deviations from the mean is the mean of
    the squares minus the squared mean. -/
theorem var_two_forms (x : Fin 256 → ℝ) (m : ℝ) (hm : m = (∑ c, x c) * (1 / 256)) :
    (∑ c, (x c - m) * (x c - m)) * (1 / 256) = (∑ c, x c * x c) * (1 / 256) - m * m := by
  have h : ∀ c, (x c - m) * (x c - m) = x c * x c - 2 * m * x c + m * m := by intro c; ring
  have hS : ∑ c, x c = 256 * m := by rw [hm]; ring
  simp_rw [h, Finset.sum_add_distrib, Finset.sum_sub_distrib, ← Finset.mul_sum, Finset.sum_const,
    Finset.card_univ, Fintype.card_fin, nsmul_eq_mul]
  rw [hS]; push_cast; ring

/-- A sum over the 256 columns against the 0-or-1 indicator of patch `j` is the sum over the 8
    columns of that patch. -/
theorem sum_mask (F : Fin 256 → ℝ) (j : Fin 32) :
    ∑ w : Fin 256, F w * (if w.val / 8 = j.val then (1 : ℝ) else 0) = ∑ q : Fin 8, F (cell j q) := by
  have h1 : ∀ w : Fin 256, F w * (if w.val / 8 = j.val then (1 : ℝ) else 0)
      = if w.val / 8 = j.val then F w else 0 := by
    intro w; split_ifs <;> simp
  simp_rw [h1]
  rw [← Finset.sum_filter]
  have h2 : Finset.univ.filter (fun w : Fin 256 => w.val / 8 = j.val) = Finset.univ.image (cell j) := by
    ext w
    simp only [Finset.mem_filter, Finset.mem_univ, true_and, Finset.mem_image]
    constructor
    · intro hw
      refine ⟨⟨w.val % 8, Nat.mod_lt _ (by norm_num)⟩, ?_⟩
      apply Fin.ext
      show 8 * j.val + w.val % 8 = w.val
      omega
    · rintro ⟨q, rfl⟩
      show (8 * j.val + q.val) / 8 = j.val
      omega
  rw [h2, Finset.sum_image]
  intro q1 _ q2 _ h
  have h3 : 8 * j.val + q1.val = 8 * j.val + q2.val := congrArg Fin.val h
  exact Fin.ext (by omega)

/-- A mean over rows, then a product with the pooling matrix, then the affine map, is the mean over
    the patch of the affine map. -/
theorem pm_real (T : Fin 256 → Fin 256 → ℝ) (g bb : ℝ) (i j : Fin 32) :
    g * (∑ w : Fin 256, (∑ p : Fin 8, T (cell i p) w) * (1 / 8)
          * ((if w.val / 8 = j.val then (1 : ℝ) else 0) * (1 / 8))) + bb
      = (∑ p : Fin 8, ∑ q : Fin 8, (T (cell i p) (cell j q) * g + bb)) * (1 / 64) := by
  have h1 : ∀ w : Fin 256, (∑ p : Fin 8, T (cell i p) w) * (1 / 8)
        * ((if w.val / 8 = j.val then (1 : ℝ) else 0) * (1 / 8))
      = ((∑ p : Fin 8, T (cell i p) w) * (1 / 64)) * (if w.val / 8 = j.val then (1 : ℝ) else 0) := by
    intro w; ring
  simp_rw [h1]
  rw [sum_mask (fun w => (∑ p : Fin 8, T (cell i p) w) * (1 / 64)) j]
  simp_rw [Finset.sum_add_distrib, Finset.sum_const, Finset.card_univ, Fintype.card_fin, nsmul_eq_mul,
    ← Finset.sum_mul]
  rw [Finset.sum_comm]
  push_cast; ring

/-! ### The stages on real inputs -/

/-- `Ideal.logistic` is real at every extended real. -/
theorem logistic_real (y : EReal) : ∃ r : ℝ, Ideal.logistic y = (r : EReal) := by
  induction y using EReal.rec with
  | bot => exact ⟨0, by simp⟩
  | coe r => exact ⟨_, Ideal.logistic_coe r⟩
  | top => exact ⟨1, by simp⟩

/-- The real mean, variance and normalized value of a real input. -/
def muR (x : Fin 8 → Fin 256 → Fin 256 → Fin 256 → ℝ) (b : Fin 8) (h w : Fin 256) : ℝ :=
  (∑ c, x b c h w) * (1 / 256)
def varR (x : Fin 8 → Fin 256 → Fin 256 → Fin 256 → ℝ) (b : Fin 8) (h w : Fin 256) : ℝ :=
  (∑ c, (x b c h w - muR x b h w) * (x b c h w - muR x b h w)) * (1 / 256)
def tR (x : Fin 8 → Fin 256 → Fin 256 → Fin 256 → ℝ) (e : ℝ) (b : Fin 8) (c h w : Fin 256) : ℝ :=
  (x b c h w - muR x b h w) * (Real.sqrt (varR x b h w + e))⁻¹

theorem varR_nonneg (x : Fin 8 → Fin 256 → Fin 256 → Fin 256 → ℝ) (b : Fin 8) (h w : Fin 256) :
    0 ≤ varR x b h w :=
  mul_nonneg (Finset.sum_nonneg (fun _ _ => mul_self_nonneg _)) (by norm_num)

section Stages

variable (X : Fin 8 → Fin 256 → Fin 256 → Fin 256 → EReal) (γ β : Fin 256 → EReal)
  (W1 : Fin 32 → Fin 256 → EReal) (W2 : Fin 256 → Fin 32 → EReal)
  (x : Fin 8 → Fin 256 → Fin 256 → Fin 256 → ℝ) (g bb : Fin 256 → ℝ)

theorem mu_eq (hx : ∀ b c h w, X b c h w = (x b c h w : EReal)) (b : Fin 8) (h w : Fin 256) :
    mu X b h w = (muR x b h w : EReal) := by
  unfold mu muR
  simp_rw [hx]
  rw [c256_eq, Ideal.div_coe (by norm_num), ← coe_sum, ← EReal.coe_mul]

theorem var_eq (hx : ∀ b c h w, X b c h w = (x b c h w : EReal)) (b : Fin 8) (h w : Fin 256) :
    var X b h w = (varR x b h w : EReal) := by
  unfold var varR
  simp_rw [mu_eq X x hx, hx, ← EReal.coe_sub, ← EReal.coe_mul]
  rw [c256_eq, Ideal.div_coe (by norm_num), ← coe_sum, ← EReal.coe_mul]

theorem varK_eq (hx : ∀ b c h w, X b c h w = (x b c h w : EReal)) (b : Fin 8) (h w : Fin 256) :
    varK X b h w = (varR x b h w : EReal) := by
  unfold varK varR
  simp_rw [mu_eq X x hx, hx, ← EReal.coe_mul]
  rw [c256_eq, Ideal.div_coe (by norm_num), ← coe_sum, ← EReal.coe_mul, ← EReal.coe_sub,
    var_two_forms (fun c => x b c h w) (muR x b h w) rfl]

theorem tn_eq (hx : ∀ b c h w, X b c h w = (x b c h w : EReal)) (e : ℝ) (he : 0 < e)
    (hε : eps = (e : EReal)) (b : Fin 8) (c h w : Fin 256) :
    tn X b c h w = (tR x e b c h w : EReal) := by
  have hpos : 0 < varR x b h w + e := add_pos_of_nonneg_of_pos (varR_nonneg x b h w) he
  unfold tn tR
  rw [var_eq X x hx, mu_eq X x hx, hx, hε, ← EReal.coe_sub, ← EReal.coe_add, Ideal.rsqrt_coe,
    if_neg (not_lt.mpr hpos.le), if_neg hpos.ne', ← EReal.coe_mul]

theorem tK_eq_tn (hx : ∀ b c h w, X b c h w = (x b c h w : EReal)) (b : Fin 8) (c h w : Fin 256) :
    tK X b c h w = tn X b c h w := by
  unfold tK tn
  rw [varK_eq X x hx, var_eq X x hx]

theorem xn_eq (hx : ∀ b c h w, X b c h w = (x b c h w : EReal)) (hg : ∀ c, γ c = (g c : EReal))
    (hb : ∀ c, β c = (bb c : EReal)) (e : ℝ) (he : 0 < e) (hε : eps = (e : EReal))
    (b : Fin 8) (c h w : Fin 256) :
    xn X γ β b c h w = ((tR x e b c h w * g c + bb c : ℝ) : EReal) := by
  unfold xn
  rw [tn_eq X x hx e he hε, hg, hb, ← EReal.coe_mul, ← EReal.coe_add]

theorem pm_eq (hx : ∀ b c h w, X b c h w = (x b c h w : EReal)) (hg : ∀ c, γ c = (g c : EReal))
    (hb : ∀ c, β c = (bb c : EReal)) (e : ℝ) (he : 0 < e) (hε : eps = (e : EReal))
    (b : Fin 8) (i j : Fin 32) (c : Fin 256) :
    pm X γ β b i j c
      = (((∑ p : Fin 8, ∑ q : Fin 8, (tR x e b c (cell i p) (cell j q) * g c + bb c)) * (1 / 64) : ℝ) : EReal) := by
  unfold pm
  simp_rw [xn_eq X γ β x g bb hx hg hb e he hε, ← coe_sum]
  rw [c64_eq, Ideal.div_coe (by norm_num), ← EReal.coe_mul]

theorem hmeanK_eq (hx : ∀ b c h w, X b c h w = (x b c h w : EReal)) (e : ℝ) (he : 0 < e)
    (hε : eps = (e : EReal)) (b : Fin 8) (c : Fin 256) (i : Fin 32) (w : Fin 256) :
    hmeanK X b c i w = (((∑ p : Fin 8, tR x e b c (cell i p) w) * (1 / 8) : ℝ) : EReal) := by
  unfold hmeanK
  simp_rw [tK_eq_tn X x hx, tn_eq X x hx e he hε, ← coe_sum]
  rw [c8_eq, Ideal.div_coe (by norm_num), ← EReal.coe_mul]

theorem mask_div_eq (w : Fin 256) (j : Fin 32) :
    Ideal.div (mask w j) c8 = (((if w.val / 8 = j.val then (1 : ℝ) else 0) * (1 / 8) : ℝ) : EReal) := by
  have hm : mask w j = (((if w.val / 8 = j.val then (1 : ℝ) else 0) : ℝ) : EReal) := by
    unfold mask; split_ifs <;> simp
  rw [hm, c8_eq, Ideal.div_coe (by norm_num), ← EReal.coe_mul]

theorem pmK_eq_pm (hx : ∀ b c h w, X b c h w = (x b c h w : EReal)) (hg : ∀ c, γ c = (g c : EReal))
    (hb : ∀ c, β c = (bb c : EReal)) (e : ℝ) (he : 0 < e) (hε : eps = (e : EReal))
    (b : Fin 8) (i j : Fin 32) (c : Fin 256) :
    pmK X γ β b i j c = pm X γ β b i j c := by
  rw [pm_eq X γ β x g bb hx hg hb e he hε]
  unfold pmK
  simp_rw [hmeanK_eq X x hx e he hε, mask_div_eq, ← EReal.coe_mul, ← coe_sum]
  rw [hg, hb, ← EReal.coe_mul, ← EReal.coe_add, pm_real (fun h w => tR x e b c h w) (g c) (bb c) i j]

/-- Reading the gates back through the 0-or-1 matrix picks the gate of the column's patch: no
    assumption on the gates. -/
theorem gwK_eq (b : Fin 8) (i : Fin 32) (c w : Fin 256) :
    gwK X γ β W1 W2 b i c w = gateOf W1 W2 (pmK X γ β b i (patch w)) c := by
  unfold gwK
  rw [Finset.sum_eq_single (patch w)]
  · have hm : mask w (patch w) = 1 := by unfold mask; rw [if_pos rfl]
    rw [hm, mul_one]
  · intro j _ hj
    have hm : mask w j = 0 := by
      unfold mask; rw [if_neg]
      intro h; exact hj (Fin.ext h.symm)
    rw [hm, mul_zero]
  · intro h; exact absurd (Finset.mem_univ _) h

end Stages

/-- On real inputs the second arrangement is the first. -/
theorem outK_eq_out (X : Fin 8 → Fin 256 → Fin 256 → Fin 256 → EReal) (γ β : Fin 256 → EReal)
    (W1 : Fin 32 → Fin 256 → EReal) (W2 : Fin 256 → Fin 32 → EReal)
    (hX : ∀ b c h w, ∃ r : ℝ, X b c h w = (r : EReal)) (hγ : ∀ c, ∃ r : ℝ, γ c = (r : EReal))
    (hβ : ∀ c, ∃ r : ℝ, β c = (r : EReal))
    (b : Fin 8) (c h w : Fin 256) :
    Cert.Spec.outK X γ β W1 W2 b c h w = Cert.Spec.out X γ β W1 W2 b c h w := by
  choose x hx using hX
  choose g hg using hγ
  choose bb hb using hβ
  obtain ⟨e, he, hε⟩ := eps_eq
  have hP : pmK X γ β b (patch h) (patch w) = pm X γ β b (patch h) (patch w) :=
    funext (fun c' => pmK_eq_pm X γ β x g bb hx hg hb e he hε b (patch h) (patch w) c')
  obtain ⟨s, hs⟩ := logistic_real (∑ r : Fin 32, hidOf W1 (pm X γ β b (patch h) (patch w)) r * W2 c r)
  have hG : gateOf W1 W2 (pm X γ β b (patch h) (patch w)) c = (s : EReal) := hs
  unfold outK out
  rw [gwK_eq, hP, hG, xn_eq X γ β x g bb hx hg hb e he hε, tK_eq_tn X x hx, tn_eq X x hx e he hε, hg, hb]
  simp only [← EReal.coe_mul, ← EReal.coe_add]
  congr 1; ring

end Cert.Laws

end
-- ==== Proof.FiniteInputs.lean ====
/-
  The precondition "every input is finite" read back: each of the first three arrays holds real numbers.
  The predicate is a conjunction of five bits, each a reduction by "and" over all axes of the elementwise test
  |x| < +∞. A conjunction that is 1 has each bit 1; a full reduction by "and" that is 1 has every element 1; and
  |x| < +∞ on the extended reals excludes both infinities, so x is the image of a real number.
-/
import proofs.«130388_j39152921870505_2_alg».proof.Pre_finite_inputs
import proofs.«130388_j39152921870505_2_alg».proof.Proof.Gen.Pre_finite_inputs
import Idealize.ShloMosaic.Lib.ReduceAll
import Idealize.ShloMosaic.Lib.ValueIdx
import Idealize.ShloMosaic.PureOps.Ideal
import Idealize.ShloMosaic.Lib.IdealHost

namespace Cert.Finite

open Idealize.ShloMosaic Idealize.ShloMosaic.ValueIdx

/-- The pattern of +∞ denotes the top element. -/
theorem ofBits_inf : Ideal.ofBits .f32 0x7F800000#32 = (⊤ : EReal) := by simp [Ideal.ofBits, Ideal.ieee]

/-- An extended real whose absolute value max x (-x) is below +∞ is a real number. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

variable [Cert.Pre_finite_inputs.Facts]

theorem real_of_pre (a0 : FVec Ideal Cert.Pre_finite_inputs.S8x256x256x256 .f32) (a1 a2 : FVec Ideal Cert.Pre_finite_inputs.S256 .f32)
    (a3 : FVec Ideal Cert.Pre_finite_inputs.S32x256 .f32) (a4 : FVec Ideal Cert.Pre_finite_inputs.S256x32 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn, Cert.Pre_finite_inputs.fn_part1] at h0
  obtain ⟨h0123, -⟩ := IntOp.andi_eq_one.1 h0
  obtain ⟨h012, -⟩ := IntOp.andi_eq_one.1 h0123
  obtain ⟨h01, e2⟩ := IntOp.andi_eq_one.1 h012
  obtain ⟨e0, e1⟩ := IntOp.andi_eq_one.1 h01
  refine ⟨fun i => ?_, fun i => ?_, fun i => ?_⟩
  · have e := Host.reduce_andi_all _ _ _ _ _ e0 i
    rw [cmpf_apply, broadcastInDim_scalar_apply, constant_apply] at e
    exact real_of_abs_lt_top _ e
  · have e := Host.reduce_andi_all _ _ _ _ _ e1 i
    rw [cmpf_apply, broadcastInDim_scalar_apply, constant_apply] at e
    exact real_of_abs_lt_top _ e
  · have e := Host.reduce_andi_all _ _ _ _ _ e2 i
    rw [cmpf_apply, broadcastInDim_scalar_apply, constant_apply] at e
    exact real_of_abs_lt_top _ e

end Cert.Finite
-- ==== Proof.lean ====
/-
  The layer-norm patch gate: the kernel against its reference on the extended reals.

  Both programs compute, per pixel, the channel-normalised value t = (x - mean) * rsqrt (var + eps), its affine image
  t * gamma + beta, the mean of that over each 8 x 8 patch, a two-layer gate per patch and channel, and the product of
  the affine image with its patch's gate. The kernel takes the variance as E[x^2] - mean^2, averages rows then
  columns (the columns through a 0-or-1/8 matrix product), applies the affine map after the patch mean, reads the
  gate back per column through a 0-or-1 matrix product, and folds gamma and beta into one coefficient pair:
  t * (gamma * g) + beta * g. On real inputs the two arrangements are one function (variance identity, linearity of
  the mean, distributivity); the precondition makes x, gamma and beta real, and the gate is a logistic value, hence
  real whatever the weights are.

  The kernel's result array is read off its run block by block (64 grid points, four row groups each); the
  reference's result is its run's term read one operation at a time; both are identified with the same
  specification, index by index.
-/
import proofs.«130388_j39152921870505_2_alg».proof.Defs
import proofs.«130388_j39152921870505_2_alg».proof.Proof.Gen.Kernel
import proofs.«130388_j39152921870505_2_alg».proof.Proof.Gen.Kernel.Skeleton
import proofs.«130388_j39152921870505_2_alg».proof.Proof.Gen.Kernel.Loops
import proofs.«130388_j39152921870505_2_alg».proof.Proof.Gen.Kernel.Launch
import proofs.«130388_j39152921870505_2_alg».proof.Proof.Gen.Kernel.Points
import proofs.«130388_j39152921870505_2_alg».proof.Proof.Gen.Kernel.Frame
import proofs.«130388_j39152921870505_2_alg».proof.Proof.Gen.KernelIdeal
import proofs.«130388_j39152921870505_2_alg».proof.Proof.Gen.KernelIdeal.Skeleton
import proofs.«130388_j39152921870505_2_alg».proof.Proof.Gen.KernelIdeal.Loops
import proofs.«130388_j39152921870505_2_alg».proof.Proof.Gen.KernelIdeal.Launch
import proofs.«130388_j39152921870505_2_alg».proof.Proof.Gen.KernelIdeal.Points
import proofs.«130388_j39152921870505_2_alg».proof.Proof.Gen.KernelIdeal.Frame
import proofs.«130388_j39152921870505_2_alg».proof.Proof.Gen.ReferenceIdeal
import proofs.«130388_j39152921870505_2_alg».proof.Proof.Gen.Pre_finite_inputs
import proofs.«130388_j39152921870505_2_alg».proof.Proof.Gen.KernelIdeal.Value
import proofs.«130388_j39152921870505_2_alg».proof.Proof.Gen.ReferenceIdeal.Run
import proofs.«130388_j39152921870505_2_alg».proof.Proof.Gen.ReferenceIdeal.Read
import proofs.«130388_j39152921870505_2_alg».proof.Proof.KernelArray
import proofs.«130388_j39152921870505_2_alg».proof.Proof.RefSpec
import proofs.«130388_j39152921870505_2_alg».proof.Proof.RealLaws
import proofs.«130388_j39152921870505_2_alg».proof.Proof.FiniteInputs
import Idealize.ShloMosaic.Adequacy
import Idealize.ShloMosaic.Init

noncomputable section

namespace Cert.Proof

open Idealize.ShloMosaic Idealize.ShloMosaic.TcCoe Idealize.SL.Sem

/-- The three programs run, fault nowhere and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- On finite inputs the kernel's result array (the second arrangement of the specification) and the reference's
    (the first) agree at every index. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2.1,
    (hagree c).2.2.2.2]
  obtain ⟨h0, h1, h2⟩ := Cert.Finite.real_of_pre _ _ _ _ _ (hpre c)
  funext i
  obtain ⟨b, k, h, w, rfl⟩ : ∃ (b : Fin 8) (k h w : Fin 256), i = ValueIdx.ix4 b k h w :=
    ⟨i 0, i 1, i 2, i 3, ValueIdx.eq_ix4 i⟩
  rw [Cert.RefSide.ref_eq]
  exact (Cert.Laws.outK_eq_out _ _ _ _ _ (fun b k h w => h0 _) (fun k => h1 _) (fun k => h2 _) b k h w).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
